-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x128 .f32) (main_arg9 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S256x256 .f32) (main_arg7 : FVec F S256 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S600000x128 .f32) (main_arg2 : FVec F S384x256 .f32) (main_arg3 : FVec F S256 .f32) (main_arg4 : FVec F S256x128 .f32) (main_arg5 : FVec F S128 .f32) (main_arg6 : FVec F S256x256 .f32) (main_arg7 : FVec F S256 .f32) (main_arg8 : FVec F S256x128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩
abbrev S600000x1 : Shape := ⟨2, ![600000, 1]⟩
abbrev S4000x128 : Shape := ⟨2, ![4000, 128]⟩
abbrev S4000x384 : Shape := ⟨2, ![4000, 384]⟩
abbrev S4000x256 : Shape := ⟨2, ![4000, 256]⟩
abbrev S1x256 : Shape := ⟨2, ![1, 256]⟩
abbrev S1x128 : Shape := ⟨2, ![1, 128]⟩

abbrev nBuf : Space → Nat
  | .hbm => 57
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S100000x128, .bf16⟩
  | .hbm, ⟨13, _⟩ => ⟨S384x256, .bf16⟩
  | .hbm, ⟨14, _⟩ => ⟨S256x128, .bf16⟩
  | .hbm, ⟨15, _⟩ => ⟨S256x256, .bf16⟩
  | .hbm, ⟨16, _⟩ => ⟨S256x128, .bf16⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S100000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S100000x128, .f32⟩
  | .hbm, ⟨56, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S384x256, .bf16⟩
  | .local _ .vmem, ⟨7, _⟩ => ⟨S256, .f32⟩
  | .local _ .vmem, ⟨8, _⟩ => ⟨S256x128, .bf16⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S256x256, .bf16⟩
  | .local _ .vmem, ⟨17, _⟩ => ⟨S256, .f32⟩
  | .local _ .vmem, ⟨18, _⟩ => ⟨S256x128, .bf16⟩
  | .local _ .vmem, ⟨19, _⟩ => ⟨S128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  concatenates_S4000x128_S4000x128_S4000x256_d1 : Shape.Concatenates [S4000x128, S4000x128] S4000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S100000x128_S600000x1_S600000x128_1_0_n_n_0_1_1128_wf : GatherDims.WF S100000x128 S600000x1 S600000x128 [1] [0] [] [0] [] 1 ![1, 128]
  dot_S4000x384_S384x256_S4000x256_1_0_0_1_n_n_wf : DotDims.WF S4000x384 S384x256 S4000x256 [1] [0] [0] [1] [] []
  dot_S4000x256_S256x128_S4000x128_1_0_0_1_n_n_wf : DotDims.WF S4000x256 S256x128 S4000x128 [1] [0] [0] [1] [] []
  scatter_S100000x128_S600000x1_S600000x128_1_0_0_1_wf : ScatterDims.WF S100000x128 S600000x1 S600000x128 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .bf16 = 32 ∨ (Rect.block (s := S600000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S600000x128.size a
  hwx0_7 : ∀ i : grid0.Coords, EltTy.bits .f32 = 32 ∨ (Rect.block (s := S600000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4000x384_S384x256_S4000x256_1_0_0_1_n_n : DotDims S4000x384 S384x256 S4000x256 where
  lhsContracting := [1]
  rhsContracting := [0]
  lhsNonContracting := [0]
  rhsNonContracting := [1]
  lhsBatch := []
  rhsBatch := []
  wf := dot_S4000x384_S384x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S600000x384 : Shape := ⟨2, ![600000, 384]⟩
abbrev S1x256 : Shape := ⟨2, ![1, 256]⟩
abbrev S1x128 : Shape := ⟨2, ![1, 128]⟩
abbrev S100000x256 : Shape := ⟨2, ![100000, 256]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x256, .f32⟩
  | .hbm, ⟨31, _⟩ => ⟨S600000x384, .f32⟩
  | .hbm, ⟨32, _⟩ => ⟨S600000x256, .f32⟩
  | .hbm, ⟨33, _⟩ => ⟨S1x256, .f32⟩
  | .hbm, ⟨34, _⟩ => ⟨S600000x256, .f32⟩
  | .hbm, ⟨35, _⟩ => ⟨S600000x256, .f32⟩
  | .hbm, ⟨36, _⟩ => ⟨S_, .f32⟩
  | .hbm, ⟨37, _⟩ => ⟨S600000x256, .f32⟩
  | .hbm, ⟨38, _⟩ => ⟨S600000x256, .f32⟩
  | .hbm, ⟨39, _⟩ => ⟨S600000x128, .f32⟩
  | .hbm, ⟨40, _⟩ => ⟨S1x128, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S100000x128, .f32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S_, .f32⟩
  | .hbm, ⟨69, _⟩ => ⟨S100000x256, .f32⟩
  | .hbm, ⟨70, _⟩ => ⟨S100000x256, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  concatenates_S600000x128_S600000x256_S600000x384_d1 : Shape.Concatenates [S600000x128, S600000x256] S600000x384 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x384_S384x256_S600000x256_1_0_0_1_n_n_wf : DotDims.WF S600000x384 S384x256 S600000x256 [1] [0] [0] [1] [] []
  dot_S600000x256_S256x128_S600000x128_1_0_0_1_n_n_wf : DotDims.WF S600000x256 S256x128 S600000x128 [1] [0] [0] [1] [] []
  scatter_S100000x128_S600000x1_S600000x128_1_0_0_1_wf : ScatterDims.WF S100000x128 S600000x1 S600000x128 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x256_S600000x256_1_0_0_1_n_n : DotDims S600000x384 S384x256 S600000x256 where
  lhsContracting := [1]
  rhsContracting := [0]
  lhsNonContracting := [0]
  rhsNonContracting := [1]
  lhsBatch := []
  rhsBatch := []
  wf := dot_S600000x384_S384x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RefRunP.lean ====
import proofs.«158007_j50869592655555_2_alg».proof.Proof.RefOps
import proofs.«158007_j50869592655555_2_alg».proof.Proof.RefStages
import Idealize.ShloMosaic.Lib.StableHlo.Run

noncomputable section

namespace Cert.ReferenceIdeal.RunP

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- Running a concatenation of two lists of operations is running the first, then the second from where the first ended. -/
theorem after_append {t : Topo} {sg : RefSig} {Val : EltTy → Type} (l1 l2 : List (HloOp t sg Val)) (V : Valuation t sg Val) :
    after (l1 ++ l2) V = after l2 (after l1 V) := by
  induction l1 generalizing V with
  | nil => rfl
  | cons op l ih => exact ih (op.result V)

/-! ## What each piece writes, and what it therefore leaves alone -/

/-- The buffers operations 1–18 write. -/
abbrev opsA_W : List (Ref sig .tc) :=
  [main_c, main_v0, main_v1, main_c_0, main_v2, main_v3, main_v4, main_v5, main_v6,
   main_c_1, main_v7, main_v8, main_c_2, main_v9, main_v10, main_v11, main_v12, main_v13]
/-- The buffers operations 19–24 write. -/
abbrev opsB1_W : List (Ref sig .tc) := [main_v14, main_v15, main_v16, main_v17, main_v18, main_v19]
/-- The buffers operations 25–31 write. -/
abbrev opsB2_W : List (Ref sig .tc) := [main_cst, main_v20, main_v21, main_v22, main_v23, main_v24, main_v25]

theorem opsA_writes : (opsA : List (HloOp τ sig (Elt F))).Forall fun op => op.writes ⊆ (opsA_W.map (Proc.devRef (τ := τ) .tc)).toFinset := by
  simp only [opsA, List.Forall, nullary_writes, unary_writes, binary_writes, ternary_writes, Finset.singleton_subset_iff, List.mem_toFinset]
  repeat' apply And.intro
  all_goals exact List.mem_map_of_mem (by decide)
theorem opsB1_writes : (opsB1 : List (HloOp τ sig (Elt F))).Forall fun op => op.writes ⊆ (opsB1_W.map (Proc.devRef (τ := τ) .tc)).toFinset := by
  simp only [opsB1, List.Forall, nullary_writes, unary_writes, binary_writes, ternary_writes, Finset.singleton_subset_iff, List.mem_toFinset]
  repeat' apply And.intro
  all_goals exact List.mem_map_of_mem (by decide)
theorem opsB2_writes : (opsB2 : List (HloOp τ sig (Elt F))).Forall fun op => op.writes ⊆ (opsB2_W.map (Proc.devRef (τ := τ) .tc)).toFinset := by
  simp only [opsB2, List.Forall, nullary_writes, unary_writes, binary_writes, ternary_writes, Finset.singleton_subset_iff, List.mem_toFinset]
  repeat' apply And.intro
  all_goals exact List.mem_map_of_mem (by decide)

/-- A buffer operations 1–18 do not write keeps its contents through them. -/
theorem keepA (W : Valuation τ sig (Elt F)) (r : Ref sig .tc) (h : r ∉ opsA_W) :
    after opsA W (Proc.devRef .tc r) = W (Proc.devRef .tc r) := after_of_writes_sub opsA W opsA_writes h
/-- A buffer operations 19–24 do not write keeps its contents through them. -/
theorem keepB1 (W : Valuation τ sig (Elt F)) (r : Ref sig .tc) (h : r ∉ opsB1_W) :
    after opsB1 W (Proc.devRef .tc r) = W (Proc.devRef .tc r) := after_of_writes_sub opsB1 W opsB1_writes h
/-- A buffer operations 25–31 do not write keeps its contents through them. -/
theorem keepB2 (W : Valuation τ sig (Elt F)) (r : Ref sig .tc) (h : r ∉ opsB2_W) :
    after opsB2 W (Proc.devRef .tc r) = W (Proc.devRef .tc r) := after_of_writes_sub opsB2 W opsB2_writes h

/-! ## What each piece produces, from any entry contents -/

/-- Operations 1–18 leave in `main_v6` the rows of the node table gathered at the normalised first index list. -/
theorem A_v6 (W : Valuation τ sig (Elt F)) :
    after opsA W (Proc.devRef .tc main_v6) = Stage.val_main_v6 (F := F) (W (Proc.devRef .tc main_arg0)) (W (Proc.devRef .tc main_arg10)) := by
  after_results_simp
  rfl
/-- Operations 1–18 leave in `main_v13` the rows of the node table gathered at the normalised second index list. -/
theorem A_v13 (W : Valuation τ sig (Elt F)) :
    after opsA W (Proc.devRef .tc main_v13) = Stage.val_main_v13 (F := F) (W (Proc.devRef .tc main_arg0)) (W (Proc.devRef .tc main_arg11)) := by
  after_results_simp
  rfl

/-- Operations 19–24, entered with the two gathered tables in place, leave in `main_v19` the first dense layer before its clamp. -/
theorem B1_v19 (W : Valuation τ sig (Elt F)) (x0 : (⟨S100000x128, .f32⟩ : BufTy).Contents (Elt F)) (x10 : (⟨S600000, .i32⟩ : BufTy).Contents (Elt F)) (x11 : (⟨S600000, .i32⟩ : BufTy).Contents (Elt F))
    (h6 : W (Proc.devRef .tc main_v6) = Stage.val_main_v6 (F := F) x0 x10)
    (h13 : W (Proc.devRef .tc main_v13) = Stage.val_main_v13 (F := F) x0 x11) :
    after opsB1 W (Proc.devRef .tc main_v19)
      = Stage.val_main_v19 (F := F) x0 (W (Proc.devRef .tc main_arg1)) (W (Proc.devRef .tc main_arg2)) (W (Proc.devRef .tc main_arg3)) x10 x11 := by
  after_results
  rw [h6, h13]
  rfl

/-- Operations 25–31, entered with the first layer in place, leave in `main_v25` the edge table. -/
theorem B2_v25 (W : Valuation τ sig (Elt F)) (x0 : (⟨S100000x128, .f32⟩ : BufTy).Contents (Elt F)) (x1 : (⟨S600000x128, .f32⟩ : BufTy).Contents (Elt F)) (x2 : (⟨S384x256, .f32⟩ : BufTy).Contents (Elt F)) (x3 : (⟨S256, .f32⟩ : BufTy).Contents (Elt F)) (x10 : (⟨S600000, .i32⟩ : BufTy).Contents (Elt F)) (x11 : (⟨S600000, .i32⟩ : BufTy).Contents (Elt F))
    (h19 : W (Proc.devRef .tc main_v19) = Stage.val_main_v19 (F := F) x0 x1 x2 x3 x10 x11) :
    after opsB2 W (Proc.devRef .tc main_v25)
      = Stage.val_main_v25 (F := F) x0 x1 x2 x3 (W (Proc.devRef .tc main_arg4)) (W (Proc.devRef .tc main_arg5)) x10 x11 := by
  after_results
  rw [h19]
  rfl

/-! ## The first half of the program, from any entry contents -/

theorem opsP_eq : (opsP : List (HloOp τ sig (Elt F))) = opsA ++ (opsB1 ++ opsB2) := rfl

/-- Operations 1–31 leave in `main_v25` the edge table computed from the arguments as they stood on entry. -/
theorem readP_v25 (W : Valuation τ sig (Elt F)) :
    after opsP W (Proc.devRef .tc main_v25)
      = Cert.ReferenceIdeal.Stage.val_main_v25 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg10)) (W (Proc.devRef .tc main_arg11)) := by
  have h19 := B1_v19 (after opsA W) _ _ _ (A_v6 W) (A_v13 W)
  rw [keepA W main_arg1 (by decide), keepA W main_arg2 (by decide), keepA W main_arg3 (by decide)] at h19
  have h25 := B2_v25 (after opsB1 (after opsA W)) _ _ _ _ _ _ h19
  rw [keepB1 _ main_arg4 (by decide), keepA W main_arg4 (by decide), keepB1 _ main_arg5 (by decide), keepA W main_arg5 (by decide)] at h25
  rw [opsP_eq, after_append, after_append]
  exact h25

/-- A buffer none of operations 1–31 writes keeps its contents through them. -/
theorem keepP (W : Valuation τ sig (Elt F)) (r : Ref sig .tc) (hA : r ∉ opsA_W) (hB1 : r ∉ opsB1_W) (hB2 : r ∉ opsB2_W) :
    after opsP W (Proc.devRef .tc r) = W (Proc.devRef .tc r) := by
  rw [opsP_eq, after_append, after_append, keepB2 _ r hB2, keepB1 _ r hB1, keepA W r hA]

theorem keepP_arg0 (W : Valuation τ sig (Elt F)) : after opsP W (Proc.devRef .tc main_arg0) = W (Proc.devRef .tc main_arg0) :=
  keepP W main_arg0 (by decide) (by decide) (by decide)
theorem keepP_arg1 (W : Valuation τ sig (Elt F)) : after opsP W (Proc.devRef .tc main_arg1) = W (Proc.devRef .tc main_arg1) :=
  keepP W main_arg1 (by decide) (by decide) (by decide)
theorem keepP_arg2 (W : Valuation τ sig (Elt F)) : after opsP W (Proc.devRef .tc main_arg2) = W (Proc.devRef .tc main_arg2) :=
  keepP W main_arg2 (by decide) (by decide) (by decide)
theorem keepP_arg3 (W : Valuation τ sig (Elt F)) : after opsP W (Proc.devRef .tc main_arg3) = W (Proc.devRef .tc main_arg3) :=
  keepP W main_arg3 (by decide) (by decide) (by decide)
theorem keepP_arg4 (W : Valuation τ sig (Elt F)) : after opsP W (Proc.devRef .tc main_arg4) = W (Proc.devRef .tc main_arg4) :=
  keepP W main_arg4 (by decide) (by decide) (by decide)
theorem keepP_arg5 (W : Valuation τ sig (Elt F)) : after opsP W (Proc.devRef .tc main_arg5) = W (Proc.devRef .tc main_arg5) :=
  keepP W main_arg5 (by decide) (by decide) (by decide)
theorem keepP_arg6 (W : Valuation τ sig (Elt F)) : after opsP W (Proc.devRef .tc main_arg6) = W (Proc.devRef .tc main_arg6) :=
  keepP W main_arg6 (by decide) (by decide) (by decide)
theorem keepP_arg7 (W : Valuation τ sig (Elt F)) : after opsP W (Proc.devRef .tc main_arg7) = W (Proc.devRef .tc main_arg7) :=
  keepP W main_arg7 (by decide) (by decide) (by decide)
theorem keepP_arg8 (W : Valuation τ sig (Elt F)) : after opsP W (Proc.devRef .tc main_arg8) = W (Proc.devRef .tc main_arg8) :=
  keepP W main_arg8 (by decide) (by decide) (by decide)
theorem keepP_arg9 (W : Valuation τ sig (Elt F)) : after opsP W (Proc.devRef .tc main_arg9) = W (Proc.devRef .tc main_arg9) :=
  keepP W main_arg9 (by decide) (by decide) (by decide)
theorem keepP_arg10 (W : Valuation τ sig (Elt F)) : after opsP W (Proc.devRef .tc main_arg10) = W (Proc.devRef .tc main_arg10) :=
  keepP W main_arg10 (by decide) (by decide) (by decide)
theorem keepP_arg11 (W : Valuation τ sig (Elt F)) : after opsP W (Proc.devRef .tc main_arg11) = W (Proc.devRef .tc main_arg11) :=
  keepP W main_arg11 (by decide) (by decide) (by decide)

end Cert.ReferenceIdeal.RunP

end
-- ==== Proof.RefRunQ.lean ====
import proofs.«158007_j50869592655555_2_alg».proof.Proof.RefOps
import proofs.«158007_j50869592655555_2_alg».proof.Proof.RefStages
import Idealize.ShloMosaic.Lib.StableHlo.Run

noncomputable section

namespace Cert.ReferenceIdeal.RunQ

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-! ## Two lists run one after the other -/

/-- Running a list and then a second one is running their concatenation. -/
theorem after_append (l1 l2 : List (HloOp τ sig (Elt F))) (V : Valuation τ sig (Elt F)) :
    after (l1 ++ l2) V = after l2 (after l1 V) := by
  induction l1 generalizing V with
  | nil => rfl
  | cons op l ih => rw [List.cons_append, after_cons, after_cons]; exact ih _

/-- Closes `after L V (Proc.devRef .tc r) = V (Proc.devRef .tc r)` for a literal list `L` (one of the four pieces of the
    second half, or the half itself) none of whose operations writes `r`: each operation writes its one result buffer,
    and `r` is a different reference. -/
local macro "keep_tac" : tactic => `(tactic| (
  refine StableHlo.after_of_forall_not_mem _ _ (List.forall_iff_forall_mem.mp ?_)
  simp only [opsQ, opsC1, opsC2, opsD1, opsD2, List.cons_append, List.nil_append, List.append_nil, List.Forall,
    StableHlo.nullary_writes, StableHlo.unary_writes, StableHlo.binary_writes, StableHlo.ternary_writes, Finset.mem_singleton]
  repeat' apply And.intro
  all_goals exact StableHlo.devRef_ne_of_ne (by decide)))

/-! ## What each piece leaves alone

The buffers a later piece reads through an earlier one: no operation of the earlier piece writes them. -/

theorem keepC1_v25 (V : Valuation τ sig (Elt F)) :
    after opsC1 V (Proc.devRef .tc main_v25) = V (Proc.devRef .tc main_v25) := by keep_tac
theorem keepC1_arg11 (V : Valuation τ sig (Elt F)) :
    after opsC1 V (Proc.devRef .tc main_arg11) = V (Proc.devRef .tc main_arg11) := by keep_tac
theorem keepC1_arg0 (V : Valuation τ sig (Elt F)) :
    after opsC1 V (Proc.devRef .tc main_arg0) = V (Proc.devRef .tc main_arg0) := by keep_tac
theorem keepC1_arg6 (V : Valuation τ sig (Elt F)) :
    after opsC1 V (Proc.devRef .tc main_arg6) = V (Proc.devRef .tc main_arg6) := by keep_tac
theorem keepC1_arg7 (V : Valuation τ sig (Elt F)) :
    after opsC1 V (Proc.devRef .tc main_arg7) = V (Proc.devRef .tc main_arg7) := by keep_tac
theorem keepC1_arg8 (V : Valuation τ sig (Elt F)) :
    after opsC1 V (Proc.devRef .tc main_arg8) = V (Proc.devRef .tc main_arg8) := by keep_tac
theorem keepC1_arg9 (V : Valuation τ sig (Elt F)) :
    after opsC1 V (Proc.devRef .tc main_arg9) = V (Proc.devRef .tc main_arg9) := by keep_tac
theorem keepC2_arg0 (V : Valuation τ sig (Elt F)) :
    after opsC2 V (Proc.devRef .tc main_arg0) = V (Proc.devRef .tc main_arg0) := by keep_tac
theorem keepC2_arg6 (V : Valuation τ sig (Elt F)) :
    after opsC2 V (Proc.devRef .tc main_arg6) = V (Proc.devRef .tc main_arg6) := by keep_tac
theorem keepC2_arg7 (V : Valuation τ sig (Elt F)) :
    after opsC2 V (Proc.devRef .tc main_arg7) = V (Proc.devRef .tc main_arg7) := by keep_tac
theorem keepC2_arg8 (V : Valuation τ sig (Elt F)) :
    after opsC2 V (Proc.devRef .tc main_arg8) = V (Proc.devRef .tc main_arg8) := by keep_tac
theorem keepC2_arg9 (V : Valuation τ sig (Elt F)) :
    after opsC2 V (Proc.devRef .tc main_arg9) = V (Proc.devRef .tc main_arg9) := by keep_tac
theorem keepD1_arg8 (V : Valuation τ sig (Elt F)) :
    after opsD1 V (Proc.devRef .tc main_arg8) = V (Proc.devRef .tc main_arg8) := by keep_tac
theorem keepD1_arg9 (V : Valuation τ sig (Elt F)) :
    after opsD1 V (Proc.devRef .tc main_arg9) = V (Proc.devRef .tc main_arg9) := by keep_tac

/-! ## What each piece produces

Each piece run from an arbitrary valuation `W`: the one result a later piece (or the end) reads, as the reference's
stage function of the arguments, given that `W` holds the earlier stages and the arguments at the buffers the piece reads. -/

section Pieces

variable (W : Valuation τ sig (Elt F))
  (x0 : (⟨S100000x128, .f32⟩ : BufTy).Contents (Elt F)) (x1 : (⟨S600000x128, .f32⟩ : BufTy).Contents (Elt F)) (x2 : (⟨S384x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F)) (x6 : (⟨S256x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S600000, .i32⟩ : BufTy).Contents (Elt F)) (x11 : (⟨S600000, .i32⟩ : BufTy).Contents (Elt F))

/-- Operations 32–42 (the zero table and the scatter-add at the source indices) produce the stage `main_v33`. -/
theorem runC1_v33
    (h25 : W (Proc.devRef .tc main_v25) = Cert.ReferenceIdeal.Stage.val_main_v25 (F := F) x0 x1 x2 x3 x4 x5 x10 x11)
    (h10 : W (Proc.devRef .tc main_arg10) = x10) :
    after opsC1 W (Proc.devRef .tc main_v33) = Cert.ReferenceIdeal.Stage.val_main_v33 (F := F) x0 x1 x2 x3 x4 x5 x10 x11 := by
  subst h10
  after_results_simp
  rw [h25]
  rfl

/-- Operations 43–51 (the scatter-add at the destination indices) produce the stage `main_v40`. -/
theorem runC2_v40
    (h33 : W (Proc.devRef .tc main_v33) = Cert.ReferenceIdeal.Stage.val_main_v33 (F := F) x0 x1 x2 x3 x4 x5 x10 x11)
    (h25 : W (Proc.devRef .tc main_v25) = Cert.ReferenceIdeal.Stage.val_main_v25 (F := F) x0 x1 x2 x3 x4 x5 x10 x11)
    (h11 : W (Proc.devRef .tc main_arg11) = x11) :
    after opsC2 W (Proc.devRef .tc main_v40) = Cert.ReferenceIdeal.Stage.val_main_v40 (F := F) x0 x1 x2 x3 x4 x5 x10 x11 := by
  after_results_simp
  rw [h33, h25, h11]
  rfl

/-- Operations 52–56 (the joined node rows, the first dense layer and its bias) produce the stage `main_v45`. -/
theorem runD1_v45
    (h40 : W (Proc.devRef .tc main_v40) = Cert.ReferenceIdeal.Stage.val_main_v40 (F := F) x0 x1 x2 x3 x4 x5 x10 x11)
    (h0 : W (Proc.devRef .tc main_arg0) = x0) (h6 : W (Proc.devRef .tc main_arg6) = x6)
    (h7 : W (Proc.devRef .tc main_arg7) = x7) :
    after opsD1 W (Proc.devRef .tc main_v45) = Cert.ReferenceIdeal.Stage.val_main_v45 (F := F) x0 x1 x2 x3 x4 x5 x6 x7 x10 x11 := by
  after_results_simp
  rw [h40, h0, h6, h7]
  rfl

/-- Operations 57–63 (the clamp at zero, the second dense layer and its bias) produce the node table `main_v51`. -/
theorem runD2_v51
    (h45 : W (Proc.devRef .tc main_v45) = Cert.ReferenceIdeal.Stage.val_main_v45 (F := F) x0 x1 x2 x3 x4 x5 x6 x7 x10 x11)
    (h8 : W (Proc.devRef .tc main_arg8) = x8) (h9 : W (Proc.devRef .tc main_arg9) = x9) :
    after opsD2 W (Proc.devRef .tc main_v51) = Cert.ReferenceIdeal.Stage.val_main_v51 (F := F) x0 x1 x2 x3 x4 x5 x6 x7 x8 x9 x10 x11 := by
  after_results_simp
  rw [h45, h8, h9]
  rfl

end Pieces

/-! ## The second half: from the edge table to the node table -/

/-- The second half is its four pieces run in turn. -/
theorem after_opsQ (W : Valuation τ sig (Elt F)) :
    after opsQ W = after opsD2 (after opsD1 (after opsC2 (after opsC1 W))) := by
  show after (opsC1 ++ (opsC2 ++ (opsD1 ++ opsD2))) W = _
  rw [after_append, after_append, after_append]

/-- Run from a valuation holding the edge table `main_v25` and the arguments, the second half ends with the node table
    `main_v51` at the reference's stage function of the arguments. -/
theorem readQ_v51 (W : Valuation τ sig (Elt F))
    (x0 : (⟨S100000x128, .f32⟩ : BufTy).Contents (Elt F)) (x1 : (⟨S600000x128, .f32⟩ : BufTy).Contents (Elt F)) (x2 : (⟨S384x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F)) (x6 : (⟨S256x256, .f32⟩ : BufTy).Contents (Elt F)) (x7 : (⟨S256, .f32⟩ : BufTy).Contents (Elt F)) (x8 : (⟨S256x128, .f32⟩ : BufTy).Contents (Elt F)) (x9 : (⟨S128, .f32⟩ : BufTy).Contents (Elt F)) (x10 : (⟨S600000, .i32⟩ : BufTy).Contents (Elt F)) (x11 : (⟨S600000, .i32⟩ : BufTy).Contents (Elt F))
    (h25 : W (Proc.devRef .tc main_v25) = Cert.ReferenceIdeal.Stage.val_main_v25 (F := F) x0 x1 x2 x3 x4 x5 x10 x11)
    (h0 : W (Proc.devRef .tc main_arg0) = x0) (h6 : W (Proc.devRef .tc main_arg6) = x6)
    (h7 : W (Proc.devRef .tc main_arg7) = x7) (h8 : W (Proc.devRef .tc main_arg8) = x8)
    (h9 : W (Proc.devRef .tc main_arg9) = x9) (h10 : W (Proc.devRef .tc main_arg10) = x10)
    (h11 : W (Proc.devRef .tc main_arg11) = x11) :
    after opsQ W (Proc.devRef .tc main_v51) = Cert.ReferenceIdeal.Stage.val_main_v51 (F := F) x0 x1 x2 x3 x4 x5 x6 x7 x8 x9 x10 x11 := by
  rw [after_opsQ]
  -- the stages, piece by piece
  have e33 := runC1_v33 W x0 x1 x2 x3 x4 x5 x10 x11 h25 h10
  have e40 := runC2_v40 (after opsC1 W) x0 x1 x2 x3 x4 x5 x10 x11 e33 ((keepC1_v25 W).trans h25) ((keepC1_arg11 W).trans h11)
  have e45 := runD1_v45 (after opsC2 (after opsC1 W)) x0 x1 x2 x3 x4 x5 x6 x7 x10 x11 e40
    ((keepC2_arg0 _).trans ((keepC1_arg0 W).trans h0)) ((keepC2_arg6 _).trans ((keepC1_arg6 W).trans h6))
    ((keepC2_arg7 _).trans ((keepC1_arg7 W).trans h7))
  exact runD2_v51 (after opsD1 (after opsC2 (after opsC1 W))) x0 x1 x2 x3 x4 x5 x6 x7 x8 x9 x10 x11 e45
    ((keepD1_arg8 _).trans ((keepC2_arg8 _).trans ((keepC1_arg8 W).trans h8)))
    ((keepD1_arg9 _).trans ((keepC2_arg9 _).trans ((keepC1_arg9 W).trans h9)))

/-! ## What the second half leaves alone: the edge table and the twelve arguments -/

theorem keepQ_v25 (W : Valuation τ sig (Elt F)) :
    after opsQ W (Proc.devRef .tc main_v25) = W (Proc.devRef .tc main_v25) := by keep_tac
theorem keepQ_arg0 (W : Valuation τ sig (Elt F)) :
    after opsQ W (Proc.devRef .tc main_arg0) = W (Proc.devRef .tc main_arg0) := by keep_tac
theorem keepQ_arg1 (W : Valuation τ sig (Elt F)) :
    after opsQ W (Proc.devRef .tc main_arg1) = W (Proc.devRef .tc main_arg1) := by keep_tac
theorem keepQ_arg2 (W : Valuation τ sig (Elt F)) :
    after opsQ W (Proc.devRef .tc main_arg2) = W (Proc.devRef .tc main_arg2) := by keep_tac
theorem keepQ_arg3 (W : Valuation τ sig (Elt F)) :
    after opsQ W (Proc.devRef .tc main_arg3) = W (Proc.devRef .tc main_arg3) := by keep_tac
theorem keepQ_arg4 (W : Valuation τ sig (Elt F)) :
    after opsQ W (Proc.devRef .tc main_arg4) = W (Proc.devRef .tc main_arg4) := by keep_tac
theorem keepQ_arg5 (W : Valuation τ sig (Elt F)) :
    after opsQ W (Proc.devRef .tc main_arg5) = W (Proc.devRef .tc main_arg5) := by keep_tac
theorem keepQ_arg6 (W : Valuation τ sig (Elt F)) :
    after opsQ W (Proc.devRef .tc main_arg6) = W (Proc.devRef .tc main_arg6) := by keep_tac
theorem keepQ_arg7 (W : Valuation τ sig (Elt F)) :
    after opsQ W (Proc.devRef .tc main_arg7) = W (Proc.devRef .tc main_arg7) := by keep_tac
theorem keepQ_arg8 (W : Valuation τ sig (Elt F)) :
    after opsQ W (Proc.devRef .tc main_arg8) = W (Proc.devRef .tc main_arg8) := by keep_tac
theorem keepQ_arg9 (W : Valuation τ sig (Elt F)) :
    after opsQ W (Proc.devRef .tc main_arg9) = W (Proc.devRef .tc main_arg9) := by keep_tac
theorem keepQ_arg10 (W : Valuation τ sig (Elt F)) :
    after opsQ W (Proc.devRef .tc main_arg10) = W (Proc.devRef .tc main_arg10) := by keep_tac
theorem keepQ_arg11 (W : Valuation τ sig (Elt F)) :
    after opsQ W (Proc.devRef .tc main_arg11) = W (Proc.devRef .tc main_arg11) := by keep_tac

end Cert.ReferenceIdeal.RunQ

end
-- ==== Proof.RefRun.lean ====
import proofs.«158007_j50869592655555_2_alg».proof.Proof.RefOps
import proofs.«158007_j50869592655555_2_alg».proof.Proof.RefStages
import proofs.«158007_j50869592655555_2_alg».proof.Proof.RefRunP
import proofs.«158007_j50869592655555_2_alg».proof.Proof.RefRunQ
import Idealize.ShloMosaic.Lib.StableHlo.Run

/-!
# The reference's run

The reference is a straight line of 63 host operations, so every weakly fair execution terminates with each buffer at
the fold of the operations over the launch memory. The fold is read in two halves — up to the edge table, and from the
edge table to the node table —, each half piece by piece: the edge table is the stage function `val_main_v25` of the
arguments, the node table the stage function `val_main_v51`, and no operation writes an argument.
-/

noncomputable section

namespace Cert.ReferenceIdeal.Staged

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- Running one list after another is running their concatenation. -/
theorem after_split (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is its first half, then its second half. -/
theorem after_ops (V : Valuation τ sig (Elt F)) : after (ops (F := F)) V = after opsQ (after opsP V) := by
  rw [ops_eq, after_split]

variable (m : (ℓ : Loc nD τ sig) → Buf (Elt F) ℓ)

/-- The edge table at the return. -/
theorem read25 (c : Dev nD) : after (ops (F := F)) (launchContents m c) (Proc.devRef .tc main_v25)
    = Cert.ReferenceIdeal.Stage.val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  rw [after_ops, Cert.ReferenceIdeal.RunQ.keepQ_v25]
  exact Cert.ReferenceIdeal.RunP.readP_v25 (launchContents m c)

/-- The node table at the return. -/
theorem read51 (c : Dev nD) : after (ops (F := F)) (launchContents m c) (Proc.devRef .tc main_v51)
    = Cert.ReferenceIdeal.Stage.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  exact Cert.ReferenceIdeal.RunQ.readQ_v51 (after opsP (launchContents m c)) _ _ _ _ _ _ _ _ _ _ _ _
    (Cert.ReferenceIdeal.RunP.readP_v25 (launchContents m c))
    (Cert.ReferenceIdeal.RunP.keepP_arg0 (launchContents m c)) (Cert.ReferenceIdeal.RunP.keepP_arg6 (launchContents m c))
    (Cert.ReferenceIdeal.RunP.keepP_arg7 (launchContents m c)) (Cert.ReferenceIdeal.RunP.keepP_arg8 (launchContents m c))
    (Cert.ReferenceIdeal.RunP.keepP_arg9 (launchContents m c)) (Cert.ReferenceIdeal.RunP.keepP_arg10 (launchContents m c))
    (Cert.ReferenceIdeal.RunP.keepP_arg11 (launchContents m c))

theorem readArg0 (c : Dev nD) : after (ops (F := F)) (launchContents m c) (Proc.devRef .tc main_arg0)
    = m ((c.tc : Thread nD τ).loc main_arg0) := by
  rw [after_ops, Cert.ReferenceIdeal.RunQ.keepQ_arg0, Cert.ReferenceIdeal.RunP.keepP_arg0]

theorem readArg1 (c : Dev nD) : after (ops (F := F)) (launchContents m c) (Proc.devRef .tc main_arg1)
    = m ((c.tc : Thread nD τ).loc main_arg1) := by
  rw [after_ops, Cert.ReferenceIdeal.RunQ.keepQ_arg1, Cert.ReferenceIdeal.RunP.keepP_arg1]

theorem readArg2 (c : Dev nD) : after (ops (F := F)) (launchContents m c) (Proc.devRef .tc main_arg2)
    = m ((c.tc : Thread nD τ).loc main_arg2) := by
  rw [after_ops, Cert.ReferenceIdeal.RunQ.keepQ_arg2, Cert.ReferenceIdeal.RunP.keepP_arg2]

theorem readArg3 (c : Dev nD) : after (ops (F := F)) (launchContents m c) (Proc.devRef .tc main_arg3)
    = m ((c.tc : Thread nD τ).loc main_arg3) := by
  rw [after_ops, Cert.ReferenceIdeal.RunQ.keepQ_arg3, Cert.ReferenceIdeal.RunP.keepP_arg3]

theorem readArg4 (c : Dev nD) : after (ops (F := F)) (launchContents m c) (Proc.devRef .tc main_arg4)
    = m ((c.tc : Thread nD τ).loc main_arg4) := by
  rw [after_ops, Cert.ReferenceIdeal.RunQ.keepQ_arg4, Cert.ReferenceIdeal.RunP.keepP_arg4]

theorem readArg5 (c : Dev nD) : after (ops (F := F)) (launchContents m c) (Proc.devRef .tc main_arg5)
    = m ((c.tc : Thread nD τ).loc main_arg5) := by
  rw [after_ops, Cert.ReferenceIdeal.RunQ.keepQ_arg5, Cert.ReferenceIdeal.RunP.keepP_arg5]

theorem readArg6 (c : Dev nD) : after (ops (F := F)) (launchContents m c) (Proc.devRef .tc main_arg6)
    = m ((c.tc : Thread nD τ).loc main_arg6) := by
  rw [after_ops, Cert.ReferenceIdeal.RunQ.keepQ_arg6, Cert.ReferenceIdeal.RunP.keepP_arg6]

theorem readArg7 (c : Dev nD) : after (ops (F := F)) (launchContents m c) (Proc.devRef .tc main_arg7)
    = m ((c.tc : Thread nD τ).loc main_arg7) := by
  rw [after_ops, Cert.ReferenceIdeal.RunQ.keepQ_arg7, Cert.ReferenceIdeal.RunP.keepP_arg7]

theorem readArg8 (c : Dev nD) : after (ops (F := F)) (launchContents m c) (Proc.devRef .tc main_arg8)
    = m ((c.tc : Thread nD τ).loc main_arg8) := by
  rw [after_ops, Cert.ReferenceIdeal.RunQ.keepQ_arg8, Cert.ReferenceIdeal.RunP.keepP_arg8]

theorem readArg9 (c : Dev nD) : after (ops (F := F)) (launchContents m c) (Proc.devRef .tc main_arg9)
    = m ((c.tc : Thread nD τ).loc main_arg9) := by
  rw [after_ops, Cert.ReferenceIdeal.RunQ.keepQ_arg9, Cert.ReferenceIdeal.RunP.keepP_arg9]

theorem readArg10 (c : Dev nD) : after (ops (F := F)) (launchContents m c) (Proc.devRef .tc main_arg10)
    = m ((c.tc : Thread nD τ).loc main_arg10) := by
  rw [after_ops, Cert.ReferenceIdeal.RunQ.keepQ_arg10, Cert.ReferenceIdeal.RunP.keepP_arg10]

theorem readArg11 (c : Dev nD) : after (ops (F := F)) (launchContents m c) (Proc.devRef .tc main_arg11)
    = m ((c.tc : Thread nD τ).loc main_arg11) := by
  rw [after_ops, Cert.ReferenceIdeal.RunQ.keepQ_arg11, Cert.ReferenceIdeal.RunP.keepP_arg11]

/-- Every weakly fair execution of the reference terminates without a fault, with the node table and the edge table
    at their stage functions of the arguments, and the arguments as launched. -/
theorem run (ρ : Dev nD → PrngReg) :
    θ_run defs (onTc (τ := τ) (main (F := F))) ⟨m, fun _ => 0, ρ⟩ fun r => ∀ c : Dev nD,
      r.2.mem ((c.tc : Thread nD τ).loc main_v51)
        = Cert.ReferenceIdeal.Stage.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v25)
        = Cert.ReferenceIdeal.Stage.val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v51).trans (read51 m c), (h c main_v25).trans (read25 m c),
     (h c main_arg0).trans (readArg0 m c),
     (h c main_arg1).trans (readArg1 m c),
     (h c main_arg2).trans (readArg2 m c),
     (h c main_arg3).trans (readArg3 m c),
     (h c main_arg4).trans (readArg4 m c),
     (h c main_arg5).trans (readArg5 m c),
     (h c main_arg6).trans (readArg6 m c),
     (h c main_arg7).trans (readArg7 m c),
     (h c main_arg8).trans (readArg8 m c),
     (h c main_arg9).trans (readArg9 m c),
     (h c main_arg10).trans (readArg10 m c),
     (h c main_arg11).trans (readArg11 m c)⟩)
    (run_seq scopedRefs_eq scopedSems_eq defs main (fun _ => ops) main_eq (fun _ => ops_sub) m ρ)

end Cert.ReferenceIdeal.Staged

end
-- ==== Proof.Run.lean ====
import proofs.«158007_j50869592655555_2_alg».proof.Proof.Gen.KernelIdeal.Frame

/-!
# The idealized kernel's run, with every buffer named

The program is four stretches in a row: host operations (casts, index normalisation, the two row gathers), the
edge update's grid of 150 blocks, host operations (the two scatter-adds into a zero table), the node update's grid
of 25 blocks. Every weakly fair execution terminates without a fault, and afterwards each unscoped buffer of the
TensorCore holds what the fold of those four stretches over the launch memory gives it. The frame claim keeps only
the argument arrays out of this; here the whole final valuation is kept, so that the two result arrays can be read
off it.
-/

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state every unscoped
    TensorCore buffer `b` of core `c` holds `W4 m ρ c b`: the launch memory carried through the first host stretch,
    the edge update's write-backs, the second host stretch and the node update's write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c b hb)

end Cert.KernelIdeal.Out

end
-- ==== Proof.EdgePoint.lean ====
import proofs.«158007_j50869592655555_2_alg».proof.Proof.Gen.KernelIdeal.Skeleton
import proofs.«158007_j50869592655555_2_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.Bridge.Edge

open Cert.KernelIdeal (S4000x128 S4000x384 S4000x256 S384x256 S256 S256x128 S128 S1x256 S1x128)
open Idealize.ShloMosaic.ValueIdx (ix1 ix2 eq_ix1 eq_ix2)

/-! ## The kernel's two contractions read at an index

A contraction of a `[4000, K]` array with a `[K, N]` array into the zero accumulator is, at `(p, c)`, the sum over
`k < K` of the left operand at `(p, k)` times the right operand at `(k, c)`. -/

/-- The first layer's dimension record (contract axis 1 of `[4000, 384]` with axis 0 of `[384, 256]`). -/
abbrev D1 : DotDims S4000x384 S384x256 S4000x256 := Cert.KernelIdeal.dot_S4000x384_S384x256_S4000x256_1_0_0_1_n_n
/-- The second layer's dimension record (contract axis 1 of `[4000, 256]` with axis 0 of `[256, 128]`). -/
abbrev D2 : DotDims S4000x256 S256x128 S4000x128 := Cert.KernelIdeal.dot_S4000x256_S256x128_S4000x128_1_0_0_1_n_n

theorem d1_lhs_0 (i : S4000x256.Idx) (q : D1.contr.Idx) : (D1.lhsIdx i q 0).val = (i 0).val := by
  unfold DotDims.lhsIdx
  rw [dif_neg (show ¬(0 : Fin S4000x384.rank) ∈ D1.lhsBatch by decide), dif_pos (show (0 : Fin S4000x384.rank) ∈ D1.lhsNonContracting by decide)]
  rfl
theorem d1_rhs_1 (i : S4000x256.Idx) (q : D1.contr.Idx) : (D1.rhsIdx i q 1).val = (i 1).val := by
  unfold DotDims.rhsIdx
  rw [dif_neg (show ¬(1 : Fin S384x256.rank) ∈ D1.rhsBatch by decide), dif_pos (show (1 : Fin S384x256.rank) ∈ D1.rhsNonContracting by decide)]
  rfl
theorem d2_lhs_0 (i : S4000x128.Idx) (q : D2.contr.Idx) : (D2.lhsIdx i q 0).val = (i 0).val := by
  unfold DotDims.lhsIdx
  rw [dif_neg (show ¬(0 : Fin S4000x256.rank) ∈ D2.lhsBatch by decide), dif_pos (show (0 : Fin S4000x256.rank) ∈ D2.lhsNonContracting by decide)]
  rfl
theorem d2_rhs_1 (i : S4000x128.Idx) (q : D2.contr.Idx) : (D2.rhsIdx i q 1).val = (i 1).val := by
  unfold DotDims.rhsIdx
  rw [dif_neg (show ¬(1 : Fin S256x128.rank) ∈ D2.rhsBatch by decide), dif_pos (show (1 : Fin S256x128.rank) ∈ D2.rhsNonContracting by decide)]
  rfl

/-- The first layer's contraction at `(p, h)`. -/
theorem matmul1_apply (lhs : FVec Ideal S4000x384 .bf16) (rhs : FVec Ideal S384x256 .bf16) (p : Fin 4000) (h : Fin 256) :
    FloatOps.matmul D1 none lhs rhs (constant (F := Ideal) S4000x256 .f32 0x00000000#32) (ix2 p h)
      = ∑ k : Fin 384, lhs (ix2 p k) * rhs (ix2 k h) := by
  refine (Ideal.matmul_constant_zero_apply D1 none lhs rhs (ix2 p h)).trans ?_
  rw [← Equiv.sum_comp (ValueIdx.contrEquiv1 D1 384 rfl rfl).symm]
  refine Finset.sum_congr rfl fun k _ => ?_
  have hk := ValueIdx.contrEquiv1_symm_val D1 384 rfl rfl k
  have el : D1.lhsIdx (ix2 p h) ((ValueIdx.contrEquiv1 D1 384 rfl rfl).symm k) = ix2 p k := funext fun a => Fin.ext (by
    match a with
    | ⟨0, _⟩ => exact d1_lhs_0 _ _
    | ⟨1, _⟩ => exact (D1.lhsIdx_val_of_single rfl _ _).trans hk)
  have er : D1.rhsIdx (ix2 p h) ((ValueIdx.contrEquiv1 D1 384 rfl rfl).symm k) = ix2 k h := funext fun a => Fin.ext (by
    match a with
    | ⟨0, _⟩ => exact (D1.rhsIdx_val_of_single rfl _ _).trans hk
    | ⟨1, _⟩ => exact d1_rhs_1 _ _)
  rw [el, er]

/-- The second layer's contraction at `(p, c)`. -/
theorem matmul2_apply (lhs : FVec Ideal S4000x256 .bf16) (rhs : FVec Ideal S256x128 .bf16) (p : Fin 4000) (c : Fin 128) :
    FloatOps.matmul D2 none lhs rhs (constant (F := Ideal) S4000x128 .f32 0x00000000#32) (ix2 p c)
      = ∑ h : Fin 256, lhs (ix2 p h) * rhs (ix2 h c) := by
  refine (Ideal.matmul_constant_zero_apply D2 none lhs rhs (ix2 p c)).trans ?_
  rw [← Equiv.sum_comp (ValueIdx.contrEquiv1 D2 256 rfl rfl).symm]
  refine Finset.sum_congr rfl fun k _ => ?_
  have hk := ValueIdx.contrEquiv1_symm_val D2 256 rfl rfl k
  have el : D2.lhsIdx (ix2 p c) ((ValueIdx.contrEquiv1 D2 256 rfl rfl).symm k) = ix2 p k := funext fun a => Fin.ext (by
    match a with
    | ⟨0, _⟩ => exact d2_lhs_0 _ _
    | ⟨1, _⟩ => exact (D2.lhsIdx_val_of_single rfl _ _).trans hk)
  have er : D2.rhsIdx (ix2 p c) ((ValueIdx.contrEquiv1 D2 256 rfl rfl).symm k) = ix2 k c := funext fun a => Fin.ext (by
    match a with
    | ⟨0, _⟩ => exact (D2.rhsIdx_val_of_single rfl _ _).trans hk
    | ⟨1, _⟩ => exact d2_rhs_1 _ _)
  rw [el, er]

/-! ## The bias rows: a vector viewed as one row, the row repeated down the block -/

/-- A `[b]` vector cast to `[1, b]` and broadcast to `[a, b]` reads, at `(p, c)`, the vector at `c`. -/
theorem bias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (ValueIdx.broadcastTo_1b_ab_apply _ h2 p c).trans (ValueIdx.shapeCast_a_1a_apply v h1 0 c)

/-! ## The kernel's concatenated features

Three `[4000, 128]` blocks joined along the columns, read at `(p, k)`: the block the column `k` falls in, at the
column less the widths of the blocks before it. -/

theorem kcat_lo {α : Type} (a b c : S4000x128.Idx → α)
    (h : Shape.Concatenates [S4000x128, S4000x128, S4000x128] S4000x384 1) (p : Fin 4000) (k : Fin 384) (h1 : k.val < 128) :
    concatenate S4000x384 1 [⟨S4000x128, a⟩, ⟨S4000x128, b⟩, ⟨S4000x128, c⟩] h (ix2 p k) = a (ix2 p ⟨k.val, h1⟩) :=
  concatenate_apply_piece (t := S4000x384) 1 [⟨S4000x128, a⟩, ⟨S4000x128, b⟩, ⟨S4000x128, c⟩] h (ix2 p k) 0 (by simp) S4000x128 a rfl rfl 0 rfl (ix2 p ⟨k.val, h1⟩)
    (fun d hd => by
      match d with
      | ⟨0, _⟩ => rfl
      | ⟨1, _⟩ => exact absurd rfl hd)
    (by show 0 + k.val = k.val; omega)

theorem kcat_mid {α : Type} (a b c : S4000x128.Idx → α)
    (h : Shape.Concatenates [S4000x128, S4000x128, S4000x128] S4000x384 1) (p : Fin 4000) (k : Fin 384)
    (h1 : 128 ≤ k.val) (h2 : k.val < 256) :
    concatenate S4000x384 1 [⟨S4000x128, a⟩, ⟨S4000x128, b⟩, ⟨S4000x128, c⟩] h (ix2 p k)
      = b (ix2 p ⟨k.val - 128, by omega⟩) :=
  concatenate_apply_piece (t := S4000x384) 1 [⟨S4000x128, a⟩, ⟨S4000x128, b⟩, ⟨S4000x128, c⟩] h (ix2 p k) 1 (by simp) S4000x128 b rfl rfl 128 rfl (ix2 p ⟨k.val - 128, by omega⟩)
    (fun d hd => by
      match d with
      | ⟨0, _⟩ => rfl
      | ⟨1, _⟩ => exact absurd rfl hd)
    (by show 128 + (k.val - 128) = k.val; omega)

theorem kcat_hi {α : Type} (a b c : S4000x128.Idx → α)
    (h : Shape.Concatenates [S4000x128, S4000x128, S4000x128] S4000x384 1) (p : Fin 4000) (k : Fin 384)
    (h2 : 256 ≤ k.val) :
    concatenate S4000x384 1 [⟨S4000x128, a⟩, ⟨S4000x128, b⟩, ⟨S4000x128, c⟩] h (ix2 p k)
      = c (ix2 p ⟨k.val - 256, by have := k.isLt; omega⟩) :=
  concatenate_apply_piece (t := S4000x384) 1 [⟨S4000x128, a⟩, ⟨S4000x128, b⟩, ⟨S4000x128, c⟩] h (ix2 p k) 2 (by simp) S4000x128 c rfl rfl 256 rfl (ix2 p ⟨k.val - 256, by have := k.isLt; omega⟩)
    (fun d hd => by
      match d with
      | ⟨0, _⟩ => rfl
      | ⟨1, _⟩ => exact absurd rfl hd)
    (by show 256 + (k.val - 256) = k.val; omega)

/-! ## The kernel's payload at an index -/

/-- The kernel's concatenated features, as the payload spells them: the edge block and the two gathered blocks side by
    side (the rounding to the narrow type is the identity on the ideal values, and so are the two casts to the same shape). -/
def kfeat (e0 : FVec Ideal S4000x128 .f32) (g1 g2 : FVec Ideal S4000x128 .bf16) : FVec Ideal S4000x384 .bf16 :=
  concatenate S4000x384 1 [⟨S4000x128, truncf .bf16 e0 Cert.KernelIdeal.Gen.bitsLt_bf16_f32⟩,
    ⟨S4000x128, shapeCast S4000x128 g1 Cert.KernelIdeal.Gen.shapeCasts_S4000x128_S4000x128⟩,
    ⟨S4000x128, shapeCast S4000x128 g2 Cert.KernelIdeal.Gen.shapeCasts_S4000x128_S4000x128⟩]
    Cert.KernelIdeal.Gen.concatenates_S4000x128_S4000x128_S4000x128_S4000x384_d1

/-- The block's row `p`, column `c` of the kernel's result: the second layer's sum over the hidden units of the
    rectified first layer times the second weights, plus the second bias. -/
theorem pay_apply (e0 : FVec Ideal S4000x128 .f32) (g1 g2 : FVec Ideal S4000x128 .bf16) (w1 : FVec Ideal S384x256 .bf16)
    (b1 : FVec Ideal S256 .f32) (w2 : FVec Ideal S256x128 .bf16) (b2 : FVec Ideal S128 .f32) (p : Fin 4000) (c : Fin 128) :
    Cert.KernelIdeal.Gen.k0_pay1 (F := Ideal) e0 g1 g2 w1 b1 w2 b2 (ix2 p c)
      = (∑ h : Fin 256, max ((∑ k : Fin 384, kfeat e0 g1 g2 (ix2 p k) * w1 (ix2 k h)) + b1 (ix1 h)) (Ideal.ofBits .f32 0x00000000#32)
          * w2 (ix2 h c)) + b2 (ix1 c) := by
  unfold Cert.KernelIdeal.Gen.k0_pay1
  rw [ValueIdx.addf_apply]
  refine congrArg₂ (· + ·) ?_ (bias_apply b2 _ _ p c)
  refine (matmul2_apply _ _ p c).trans ?_
  refine Finset.sum_congr rfl fun h _ => ?_
  rw [ValueIdx.truncf_apply, ValueIdx.maximumf_apply, ValueIdx.addf_apply, ValueIdx.broadcast_apply]
  refine congrArg₂ (· * ·) (congrArg₂ max (congrArg₂ (· + ·) ?_ (bias_apply b1 _ _ p h)) rfl)
    (congrFun (shapeCast_self w2 _) _)
  refine (matmul1_apply _ _ p h).trans ?_
  exact Finset.sum_congr rfl fun k _ => congrArg (kfeat e0 g1 g2 (ix2 p k) * ·) (congrFun (shapeCast_self w1 _) _)

/-! ## The reference's concatenated features

The reference joins the edge table with the join of the two gathered tables, all along the columns: column `k` of the
`[600000, 384]` table is the edge table's column `k` below 128, the first gathered table's column `k - 128` below 256,
and the second gathered table's column `k - 256` from there on. -/

/-- A `[600000, 128]` table joined with a `[600000, 256]` one along the columns, at a column below 128. -/
theorem rcat_lo {α : Type} (a : Cert.ReferenceIdeal.S600000x128.Idx → α) (bc : Cert.ReferenceIdeal.S600000x256.Idx → α)
    (h : Shape.Concatenates [Cert.ReferenceIdeal.S600000x128, Cert.ReferenceIdeal.S600000x256] Cert.ReferenceIdeal.S600000x384 1)
    (r : Fin 600000) (k : Fin 384) (h1 : k.val < 128) :
    concatenate Cert.ReferenceIdeal.S600000x384 1 [⟨Cert.ReferenceIdeal.S600000x128, a⟩, ⟨Cert.ReferenceIdeal.S600000x256, bc⟩] h (ix2 r k)
      = a (ix2 r ⟨k.val, h1⟩) :=
  concatenate_pair_apply_left 1 a bc h (ix2 r k) rfl (ix2 r ⟨k.val, h1⟩) (fun d => by
    match d with
    | ⟨0, _⟩ => rfl
    | ⟨1, _⟩ => rfl)

/-- The same join at a column from 128 on: the second table, 128 columns to the left. -/
theorem rcat_hi {α : Type} (a : Cert.ReferenceIdeal.S600000x128.Idx → α) (bc : Cert.ReferenceIdeal.S600000x256.Idx → α)
    (h : Shape.Concatenates [Cert.ReferenceIdeal.S600000x128, Cert.ReferenceIdeal.S600000x256] Cert.ReferenceIdeal.S600000x384 1)
    (r : Fin 600000) (k : Fin 384) (h1 : 128 ≤ k.val) :
    concatenate Cert.ReferenceIdeal.S600000x384 1 [⟨Cert.ReferenceIdeal.S600000x128, a⟩, ⟨Cert.ReferenceIdeal.S600000x256, bc⟩] h (ix2 r k)
      = bc (ix2 r ⟨k.val - 128, by have := k.isLt; omega⟩) :=
  concatenate_pair_apply_right 1 a bc h (ix2 r k) rfl rfl (ix2 r ⟨k.val - 128, by have := k.isLt; omega⟩)
    (fun d hd => by
      match d with
      | ⟨0, _⟩ => rfl
      | ⟨1, _⟩ => exact absurd rfl hd)
    (by show (k.val - 128) + 128 = k.val; omega)

/-- Two `[600000, 128]` tables joined along the columns, at a column below 128. -/
theorem rcat2_lo {α : Type} (b c : Cert.ReferenceIdeal.S600000x128.Idx → α)
    (h : Shape.Concatenates [Cert.ReferenceIdeal.S600000x128, Cert.ReferenceIdeal.S600000x128] Cert.ReferenceIdeal.S600000x256 1)
    (r : Fin 600000) (k : Fin 256) (h1 : k.val < 128) :
    concatenate Cert.ReferenceIdeal.S600000x256 1 [⟨Cert.ReferenceIdeal.S600000x128, b⟩, ⟨Cert.ReferenceIdeal.S600000x128, c⟩] h (ix2 r k)
      = b (ix2 r ⟨k.val, h1⟩) :=
  concatenate_pair_apply_left 1 b c h (ix2 r k) rfl (ix2 r ⟨k.val, h1⟩) (fun d => by
    match d with
    | ⟨0, _⟩ => rfl
    | ⟨1, _⟩ => rfl)

/-- The same join at a column from 128 on. -/
theorem rcat2_hi {α : Type} (b c : Cert.ReferenceIdeal.S600000x128.Idx → α)
    (h : Shape.Concatenates [Cert.ReferenceIdeal.S600000x128, Cert.ReferenceIdeal.S600000x128] Cert.ReferenceIdeal.S600000x256 1)
    (r : Fin 600000) (k : Fin 256) (h1 : 128 ≤ k.val) :
    concatenate Cert.ReferenceIdeal.S600000x256 1 [⟨Cert.ReferenceIdeal.S600000x128, b⟩, ⟨Cert.ReferenceIdeal.S600000x128, c⟩] h (ix2 r k)
      = c (ix2 r ⟨k.val - 128, by have := k.isLt; omega⟩) :=
  concatenate_pair_apply_right 1 b c h (ix2 r k) rfl rfl (ix2 r ⟨k.val - 128, by have := k.isLt; omega⟩)
    (fun d hd => by
      match d with
      | ⟨0, _⟩ => rfl
      | ⟨1, _⟩ => exact absurd rfl hd)
    (by show (k.val - 128) + 128 = k.val; omega)

section Reference

variable (x0 : (⟨Cert.ReferenceIdeal.S100000x128, .f32⟩ : BufTy).Contents (Elt Ideal))
  (x1 : (⟨Cert.ReferenceIdeal.S600000x128, .f32⟩ : BufTy).Contents (Elt Ideal))
  (x2 : (⟨Cert.ReferenceIdeal.S384x256, .f32⟩ : BufTy).Contents (Elt Ideal))
  (x3 : (⟨Cert.ReferenceIdeal.S256, .f32⟩ : BufTy).Contents (Elt Ideal))
  (x4 : (⟨Cert.ReferenceIdeal.S256x128, .f32⟩ : BufTy).Contents (Elt Ideal))
  (x5 : (⟨Cert.ReferenceIdeal.S128, .f32⟩ : BufTy).Contents (Elt Ideal))
  (x10 x11 : (⟨Cert.ReferenceIdeal.S600000, .i32⟩ : BufTy).Contents (Elt Ideal))

theorem ref_feat_lo (r : Fin 600000) (k : Fin 384) (h1 : k.val < 128) :
    Cert.ReferenceIdeal.Stage.val_main_v15 (F := Ideal) x0 x1 x10 x11 (ix2 r k) = x1 (ix2 r ⟨k.val, h1⟩) := by
  unfold Cert.ReferenceIdeal.Stage.val_main_v15
  exact rcat_lo _ _ _ r k h1

theorem ref_feat_mid (r : Fin 600000) (k : Fin 384) (h1 : 128 ≤ k.val) (h2 : k.val < 256) :
    Cert.ReferenceIdeal.Stage.val_main_v15 (F := Ideal) x0 x1 x10 x11 (ix2 r k)
      = Cert.ReferenceIdeal.Stage.val_main_v6 (F := Ideal) x0 x10 (ix2 r ⟨k.val - 128, by omega⟩) := by
  unfold Cert.ReferenceIdeal.Stage.val_main_v15
  refine (rcat_hi _ _ _ r k h1).trans ?_
  unfold Cert.ReferenceIdeal.Stage.val_main_v14
  exact rcat2_lo _ _ _ r ⟨k.val - 128, by have := k.isLt; omega⟩ (by show k.val - 128 < 128; omega)

theorem ref_feat_hi (r : Fin 600000) (k : Fin 384) (h2 : 256 ≤ k.val) :
    Cert.ReferenceIdeal.Stage.val_main_v15 (F := Ideal) x0 x1 x10 x11 (ix2 r k)
      = Cert.ReferenceIdeal.Stage.val_main_v13 (F := Ideal) x0 x11 (ix2 r ⟨k.val - 256, by have := k.isLt; omega⟩) := by
  unfold Cert.ReferenceIdeal.Stage.val_main_v15
  refine (rcat_hi _ _ _ r k (by omega)).trans ?_
  unfold Cert.ReferenceIdeal.Stage.val_main_v14
  refine (rcat2_hi _ _ _ r ⟨k.val - 128, by have := k.isLt; omega⟩ (by show 128 ≤ k.val - 128; omega)).trans ?_
  exact congrArg _ (congrArg (ix2 r) (Fin.ext (by show k.val - 128 - 128 = k.val - 256; omega)))

/-! ## The reference's stage at an index -/

/-- Row `r`, column `c` of the reference's edge update, in the same form as the kernel's payload. -/
theorem ref_apply (r : Fin 600000) (c : Fin 128) :
    Cert.ReferenceIdeal.Stage.val_main_v25 (F := Ideal) x0 x1 x2 x3 x4 x5 x10 x11 (ix2 r c)
      = (∑ h : Fin 256, max ((∑ k : Fin 384, Cert.ReferenceIdeal.Stage.val_main_v15 (F := Ideal) x0 x1 x10 x11 (ix2 r k) * x2 (ix2 k h))
            + x3 (ix1 h)) (Ideal.ofBits .f32 0x00000000#32) * x4 (ix2 h c)) + x5 (ix1 c) := by
  rw [Cert.ReferenceIdeal.Stage.val_main_v25_apply, Cert.ReferenceIdeal.Stage.val_main_v22_apply,
    Cert.ReferenceIdeal.Stage.val_main_v24_apply, Cert.ReferenceIdeal.Stage.val_main_v23_apply]
  refine congrArg₂ (· + ·) (Finset.sum_congr rfl fun h _ => ?_) (congrArg x5 (funext fun a => by
    match a with
    | ⟨0, _⟩ => rfl))
  have e1 : Cert.ReferenceIdeal.Stage.lidx_main_v22 (ix2 r c) h = ix2 r h := funext fun a => by
    match a with
    | ⟨0, _⟩ => rfl
    | ⟨1, _⟩ => rfl
  have e2 : Cert.ReferenceIdeal.Stage.ridx_main_v22 (ix2 r c) h = ix2 h c := funext fun a => by
    match a with
    | ⟨0, _⟩ => rfl
    | ⟨1, _⟩ => rfl
  rw [e1, e2, Cert.ReferenceIdeal.Stage.val_main_v21_apply, Cert.ReferenceIdeal.Stage.val_main_v19_apply,
    Cert.ReferenceIdeal.Stage.val_main_v16_apply, Cert.ReferenceIdeal.Stage.val_main_v18_apply,
    Cert.ReferenceIdeal.Stage.val_main_v17_apply, Cert.ReferenceIdeal.Stage.val_main_v20_apply,
    Cert.ReferenceIdeal.Stage.val_main_cst_apply]
  refine congrArg₂ (· * ·) (congrArg₂ max (congrArg₂ (· + ·) (Finset.sum_congr rfl fun k _ => ?_) (congrArg x3 (funext fun a => by
    match a with
    | ⟨0, _⟩ => rfl))) rfl) rfl
  have e3 : Cert.ReferenceIdeal.Stage.lidx_main_v16 (ix2 r h) k = ix2 r k := funext fun a => by
    match a with
    | ⟨0, _⟩ => rfl
    | ⟨1, _⟩ => rfl
  have e4 : Cert.ReferenceIdeal.Stage.ridx_main_v16 (ix2 r h) k = ix2 k h := funext fun a => by
    match a with
    | ⟨0, _⟩ => rfl
    | ⟨1, _⟩ => rfl
  rw [e3, e4]

end Reference

/-! ## The features agree, and the entry -/

/-- The kernel's row `p` of the concatenated features is the reference's row `T * 4000 + p`, column by column. -/
theorem feat_eq
    (x0 : (⟨Cert.ReferenceIdeal.S100000x128, .f32⟩ : BufTy).Contents (Elt Ideal))
    (x1 : (⟨Cert.ReferenceIdeal.S600000x128, .f32⟩ : BufTy).Contents (Elt Ideal))
    (x10 x11 : (⟨Cert.ReferenceIdeal.S600000, .i32⟩ : BufTy).Contents (Elt Ideal))
    (T : ℕ)
    (e0 : FVec Ideal S4000x128 .f32) (g1 g2 : FVec Ideal S4000x128 .bf16)
    (he : ∀ (p : S4000x128.Idx) (q : Cert.ReferenceIdeal.S600000x128.Idx),
      (q 0).val = T * 4000 + (p 0).val → (q 1).val = (p 1).val → e0 p = x1 q)
    (hg1 : ∀ (p : S4000x128.Idx) (q : Cert.ReferenceIdeal.S600000x128.Idx),
      (q 0).val = T * 4000 + (p 0).val → (q 1).val = (p 1).val →
      g1 p = Cert.ReferenceIdeal.Stage.val_main_v6 (F := Ideal) x0 x10 q)
    (hg2 : ∀ (p : S4000x128.Idx) (q : Cert.ReferenceIdeal.S600000x128.Idx),
      (q 0).val = T * 4000 + (p 0).val → (q 1).val = (p 1).val →
      g2 p = Cert.ReferenceIdeal.Stage.val_main_v13 (F := Ideal) x0 x11 q)
    (p : Fin 4000) (r : Fin 600000) (hr : r.val = T * 4000 + p.val) (k : Fin 384) :
    kfeat e0 g1 g2 (ix2 p k) = Cert.ReferenceIdeal.Stage.val_main_v15 (F := Ideal) x0 x1 x10 x11 (ix2 r k) := by
  unfold kfeat
  by_cases h1 : k.val < 128
  · rw [kcat_lo _ _ _ _ p k h1, ref_feat_lo x0 x1 x10 x11 r k h1]
    exact he (ix2 p ⟨k.val, h1⟩) (ix2 r ⟨k.val, h1⟩) hr rfl
  · by_cases h2 : k.val < 256
    · rw [kcat_mid _ _ _ _ p k (by omega) h2, ref_feat_mid x0 x1 x10 x11 r k (by omega) h2, shapeCast_self]
      exact hg1 (ix2 p ⟨k.val - 128, by omega⟩) (ix2 r ⟨k.val - 128, by omega⟩) hr rfl
    · rw [kcat_hi _ _ _ _ p k (by omega), ref_feat_hi x0 x1 x10 x11 r k (by omega), shapeCast_self]
      exact hg2 (ix2 p ⟨k.val - 256, by have := k.isLt; omega⟩) (ix2 r ⟨k.val - 256, by have := k.isLt; omega⟩) hr rfl

/-- One entry of the edge update. A block of 4000 edge rows (block number `T`) goes through the two dense layers
    inside the kernel; the same row of the whole edge table goes through them in the reference. When the kernel's
    loaded blocks are the corresponding rows of the reference's operands, the two entries agree. -/
theorem edge_point
    (x0 : (⟨Cert.ReferenceIdeal.S100000x128, .f32⟩ : BufTy).Contents (Elt Ideal))
    (x1 : (⟨Cert.ReferenceIdeal.S600000x128, .f32⟩ : BufTy).Contents (Elt Ideal))
    (x2 : (⟨Cert.ReferenceIdeal.S384x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x10 x11 : (⟨Cert.ReferenceIdeal.S600000, .i32⟩ : BufTy).Contents (Elt Ideal))
    (T : ℕ)
    (e0 : Vec Ideal S4000x128 .f32) (g1 g2 : Vec Ideal S4000x128 .bf16) (w1 : Vec Ideal S384x256 .bf16)
    (b1 : Vec Ideal S256 .f32) (w2 : Vec Ideal S256x128 .bf16) (b2 : Vec Ideal S128 .f32)
    (he : ∀ (p : S4000x128.Idx) (q : Cert.ReferenceIdeal.S600000x128.Idx),
      (q 0).val = T * 4000 + (p 0).val → (q 1).val = (p 1).val → e0 p = x1 q)
    (hg1 : ∀ (p : S4000x128.Idx) (q : Cert.ReferenceIdeal.S600000x128.Idx),
      (q 0).val = T * 4000 + (p 0).val → (q 1).val = (p 1).val →
      g1 p = Cert.ReferenceIdeal.Stage.val_main_v6 (F := Ideal) x0 x10 q)
    (hg2 : ∀ (p : S4000x128.Idx) (q : Cert.ReferenceIdeal.S600000x128.Idx),
      (q 0).val = T * 4000 + (p 0).val → (q 1).val = (p 1).val →
      g2 p = Cert.ReferenceIdeal.Stage.val_main_v13 (F := Ideal) x0 x11 q)
    (hw1 : ∀ j, w1 j = x2 j) (hb1 : ∀ j, b1 j = x3 j) (hw2 : ∀ j, w2 j = x4 j) (hb2 : ∀ j, b2 j = x5 j)
    (y : S4000x128.Idx) (i : Cert.ReferenceIdeal.S600000x128.Idx)
    (hr : (i 0).val = T * 4000 + (y 0).val) (hc : (i 1).val = (y 1).val) :
    Cert.KernelIdeal.Gen.k0_pay1 (F := Ideal) e0 g1 g2 w1 b1 w2 b2 y
      = Cert.ReferenceIdeal.Stage.val_main_v25 (F := Ideal) x0 x1 x2 x3 x4 x5 x10 x11 i := by
  obtain ⟨p, c, rfl⟩ : ∃ (p : Fin 4000) (c : Fin 128), y = ix2 p c := ⟨y 0, y 1, eq_ix2 y⟩
  obtain ⟨r, c', rfl⟩ : ∃ (r : Fin 600000) (c' : Fin 128), i = ix2 r c' := ⟨i 0, i 1, eq_ix2 i⟩
  have hr' : r.val = T * 4000 + p.val := hr
  have hcc : c' = c := Fin.ext hc
  subst hcc
  refine (pay_apply e0 g1 g2 w1 b1 w2 b2 _ _).trans (Eq.trans ?_ (ref_apply x0 x1 x2 x3 x4 x5 x10 x11 _ _).symm)
  refine congrArg₂ (· + ·) (Finset.sum_congr rfl fun h _ => ?_) (hb2 _)
  refine congrArg₂ (· * ·) (congrArg₂ max (congrArg₂ (· + ·) (Finset.sum_congr rfl fun k _ => ?_) (hb1 _)) rfl) (hw2 _)
  exact congrArg₂ (· * ·) (feat_eq x0 x1 x10 x11 T e0 g1 g2 he hg1 hg2 p r hr' k) (hw1 _)

end Cert.Bridge.Edge

end
-- ==== Proof.EdgeValue.lean ====
import proofs.«158007_j50869592655555_2_alg».proof.Proof.Gen.KernelIdeal.Frame
import proofs.«158007_j50869592655555_2_alg».proof.Proof.RefStages
import proofs.«158007_j50869592655555_2_alg».proof.Proof.EdgePoint
import Idealize.ShloMosaic.Lib.Pipeline.Value
import Idealize.ShloMosaic.Lib.StableHlo.Run

/-!
# The edge update's result array

The first grid walks the 600000 edge rows in 150 blocks of 4000. At block `t` the body reads rows
`4000 t … 4000 t + 3999` of the edge features and of the two gathered endpoint tables, the two weight matrices and
the two biases whole, and writes rows `4000 t … 4000 t + 3999` of the result. The gathered tables are the host's row
gathers of the node table (cast to the narrow format first, which is the identity on extended reals), the weights are
the casts of the arguments. Row by row this is the reference's edge update (`EdgePoint`), the blocks tile the array,
so after the grid the result array IS the reference's edge table of the same arguments.
-/

set_option maxRecDepth 16384

noncomputable section

namespace Cert.KernelIdeal.Out

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The reference's edge table of the launch memory's argument arrays. -/
abbrev edgeRef (c : Dev nD) : (⟨Cert.ReferenceIdeal.S600000x128, .f32⟩ : BufTy).Contents (Elt Ideal) :=
  Cert.ReferenceIdeal.Stage.val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg10)) (m ((c : Thread nD τ).loc main_arg11))

/-- Where the first grid's windows sit at point `t`: the edge features, the two gathered tables and the result at
    block row `t`; the weights and biases at their only block. -/
theorem idx_edge : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = 0 ∧ win0_3.index t (1 : Fin 2) = 0 ∧
    win0_4.index t (0 : Fin 1) = 0 ∧
    win0_5.index t (0 : Fin 2) = 0 ∧ win0_5.index t (1 : Fin 2) = 0 ∧
    win0_6.index t (0 : Fin 1) = 0 ∧
    win0_7.index t (0 : Fin 2) = t.val ∧ win0_7.index t (1 : Fin 2) = 0 :=
  (by decide +kernel : ∀ t : Fin grid0.N, _)

/-! ## The arrays the first grid finds -/

theorem V1_arg1 (c : Dev nD) (q : S600000x128.Idx) :
    V1 m ρ c main_arg1 q = m ((c : Thread nD τ).loc main_arg1) q := by
  show StableHlo.after hostOps0 (W0 m ρ c) (Proc.devRef .tc main_arg1) q = _
  after_results

theorem V1_arg3 (c : Dev nD) (q : S256.Idx) :
    V1 m ρ c main_arg3 q = m ((c : Thread nD τ).loc main_arg3) q := by
  show StableHlo.after hostOps0 (W0 m ρ c) (Proc.devRef .tc main_arg3) q = _
  after_results

theorem V1_arg5 (c : Dev nD) (q : S128.Idx) :
    V1 m ρ c main_arg5 q = m ((c : Thread nD τ).loc main_arg5) q := by
  show StableHlo.after hostOps0 (W0 m ρ c) (Proc.devRef .tc main_arg5) q = _
  after_results

/-- The first layer's weights as the grid finds them: the argument, cast (the identity on extended reals). -/
theorem V1_v1 (c : Dev nD) (q : S384x256.Idx) :
    V1 m ρ c main_v1 q = m ((c : Thread nD τ).loc main_arg2) q := by
  show StableHlo.after hostOps0 (W0 m ρ c) (Proc.devRef .tc main_v1) q = _
  after_results
  rfl

/-- The second layer's weights as the grid finds them. -/
theorem V1_v2 (c : Dev nD) (q : S256x128.Idx) :
    V1 m ρ c main_v2 q = m ((c : Thread nD τ).loc main_arg4) q := by
  show StableHlo.after hostOps0 (W0 m ρ c) (Proc.devRef .tc main_v2) q = _
  after_results
  rfl

/-- The source endpoints' rows as the grid finds them: the host's gather of the node table (cast first: the
    identity) at the normalised source indices — the reference's gather of the same arguments. -/
theorem V1_v11 (c : Dev nD) (q : S600000x128.Idx) :
    V1 m ρ c main_v11 q = Cert.ReferenceIdeal.Stage.val_main_v6 (F := Ideal) (m ((c : Thread nD τ).loc main_arg0))
      (m ((c : Thread nD τ).loc main_arg10)) q := by
  show StableHlo.after hostOps0 (W0 m ρ c) (Proc.devRef .tc main_v11) q = _
  after_results
  rfl

/-- The destination endpoints' rows as the grid finds them. -/
theorem V1_v18 (c : Dev nD) (q : S600000x128.Idx) :
    V1 m ρ c main_v18 q = Cert.ReferenceIdeal.Stage.val_main_v13 (F := Ideal) (m ((c : Thread nD τ).loc main_arg0))
      (m ((c : Thread nD τ).loc main_arg11)) q := by
  show StableHlo.after hostOps0 (W0 m ρ c) (Proc.devRef .tc main_v18) q = _
  after_results_simp
  rfl

/-! ## The blocks the body loads at point `t` -/

theorem blk_edge0 (c : Dev nD) (t : Fin cfg0.N) (p : S4000x128.Idx) (q : S600000x128.Idx)
    (h0 : (q 0).val = t.val * 4000 + (p 0).val) (h1 : (q 1).val = (p 1).val) :
    iblk0 (V1 m ρ) c 0 t p = m ((c : Thread nD τ).loc main_arg1) q := by
  obtain ⟨e0, e1, -⟩ := idx_edge t
  have e : ((cfg0.win 0).blk t).view.emb p = q := by
    funext a; apply Fin.ext
    match a with
    | ⟨0, _⟩ => show win0_0.index t (0 : Fin 2) * 4000 + 1 * (p 0).val = (q 0).val; rw [e0]; omega
    | ⟨1, _⟩ => show win0_0.index t (1 : Fin 2) * 128 + 1 * (p 1).val = (q 1).val; rw [e1]; omega
  show V1 m ρ c main_arg1 (((cfg0.win 0).blk t).view.emb p) = _
  rw [e]
  exact V1_arg1 m ρ c q

theorem blk_edge1 (c : Dev nD) (t : Fin cfg0.N) (p : S4000x128.Idx) (q : S600000x128.Idx)
    (h0 : (q 0).val = t.val * 4000 + (p 0).val) (h1 : (q 1).val = (p 1).val) :
    iblk0 (V1 m ρ) c 1 t p = Cert.ReferenceIdeal.Stage.val_main_v6 (F := Ideal) (m ((c : Thread nD τ).loc main_arg0))
      (m ((c : Thread nD τ).loc main_arg10)) q := by
  obtain ⟨-, -, e0, e1, -⟩ := idx_edge t
  have e : ((cfg0.win 1).blk t).view.emb p = q := by
    funext a; apply Fin.ext
    match a with
    | ⟨0, _⟩ => show win0_1.index t (0 : Fin 2) * 4000 + 1 * (p 0).val = (q 0).val; rw [e0]; omega
    | ⟨1, _⟩ => show win0_1.index t (1 : Fin 2) * 128 + 1 * (p 1).val = (q 1).val; rw [e1]; omega
  show V1 m ρ c main_v11 (((cfg0.win 1).blk t).view.emb p) = _
  rw [e]
  exact V1_v11 m ρ c q

theorem blk_edge2 (c : Dev nD) (t : Fin cfg0.N) (p : S4000x128.Idx) (q : S600000x128.Idx)
    (h0 : (q 0).val = t.val * 4000 + (p 0).val) (h1 : (q 1).val = (p 1).val) :
    iblk0 (V1 m ρ) c 2 t p = Cert.ReferenceIdeal.Stage.val_main_v13 (F := Ideal) (m ((c : Thread nD τ).loc main_arg0))
      (m ((c : Thread nD τ).loc main_arg11)) q := by
  obtain ⟨-, -, -, -, e0, e1, -⟩ := idx_edge t
  have e : ((cfg0.win 2).blk t).view.emb p = q := by
    funext a; apply Fin.ext
    match a with
    | ⟨0, _⟩ => show win0_2.index t (0 : Fin 2) * 4000 + 1 * (p 0).val = (q 0).val; rw [e0]; omega
    | ⟨1, _⟩ => show win0_2.index t (1 : Fin 2) * 128 + 1 * (p 1).val = (q 1).val; rw [e1]; omega
  show V1 m ρ c main_v18 (((cfg0.win 2).blk t).view.emb p) = _
  rw [e]
  exact V1_v18 m ρ c q

theorem blk_edge3 (c : Dev nD) (t : Fin cfg0.N) (j : S384x256.Idx) :
    iblk0 (V1 m ρ) c 3 t j = m ((c : Thread nD τ).loc main_arg2) j := by
  obtain ⟨-, -, -, -, -, -, e0, e1, -⟩ := idx_edge t
  have e : ((cfg0.win 3).blk t).view.emb j = j := by
    funext a; apply Fin.ext
    match a with
    | ⟨0, _⟩ => show win0_3.index t (0 : Fin 2) * 384 + 1 * (j 0).val = (j 0).val; rw [e0]; omega
    | ⟨1, _⟩ => show win0_3.index t (1 : Fin 2) * 256 + 1 * (j 1).val = (j 1).val; rw [e1]; omega
  show V1 m ρ c main_v1 (((cfg0.win 3).blk t).view.emb j) = _
  rw [e]
  exact V1_v1 m ρ c j

theorem blk_edge4 (c : Dev nD) (t : Fin cfg0.N) (j : S256.Idx) :
    iblk0 (V1 m ρ) c 4 t j = m ((c : Thread nD τ).loc main_arg3) j := by
  obtain ⟨-, -, -, -, -, -, -, -, e0, -⟩ := idx_edge t
  have e : ((cfg0.win 4).blk t).view.emb j = j := by
    funext a; apply Fin.ext
    match a with
    | ⟨0, _⟩ => show win0_4.index t (0 : Fin 1) * 256 + 1 * (j 0).val = (j 0).val; rw [e0]; omega
  show V1 m ρ c main_arg3 (((cfg0.win 4).blk t).view.emb j) = _
  rw [e]
  exact V1_arg3 m ρ c j

theorem blk_edge5 (c : Dev nD) (t : Fin cfg0.N) (j : S256x128.Idx) :
    iblk0 (V1 m ρ) c 5 t j = m ((c : Thread nD τ).loc main_arg4) j := by
  obtain ⟨-, -, -, -, -, -, -, -, -, e0, e1, -⟩ := idx_edge t
  have e : ((cfg0.win 5).blk t).view.emb j = j := by
    funext a; apply Fin.ext
    match a with
    | ⟨0, _⟩ => show win0_5.index t (0 : Fin 2) * 256 + 1 * (j 0).val = (j 0).val; rw [e0]; omega
    | ⟨1, _⟩ => show win0_5.index t (1 : Fin 2) * 128 + 1 * (j 1).val = (j 1).val; rw [e1]; omega
  show V1 m ρ c main_v2 (((cfg0.win 5).blk t).view.emb j) = _
  rw [e]
  exact V1_v2 m ρ c j

theorem blk_edge6 (c : Dev nD) (t : Fin cfg0.N) (j : S128.Idx) :
    iblk0 (V1 m ρ) c 6 t j = m ((c : Thread nD τ).loc main_arg5) j := by
  obtain ⟨-, -, -, -, -, -, -, -, -, -, -, e0, -⟩ := idx_edge t
  have e : ((cfg0.win 6).blk t).view.emb j = j := by
    funext a; apply Fin.ext
    match a with
    | ⟨0, _⟩ => show win0_6.index t (0 : Fin 1) * 128 + 1 * (j 0).val = (j 0).val; rw [e0]; omega
  show V1 m ρ c main_arg5 (((cfg0.win 6).blk t).view.emb j) = _
  rw [e]
  exact V1_arg5 m ρ c j

/-! ## What point `t` writes back, the cover, the array -/

/-- Point `t` writes back rows `4000 t … 4000 t + 3999` of the reference's edge table. -/
theorem flushed_edge (c : Dev nD) (t : Fin cfg0.N) :
    (dat0 (V1 m ρ) c).flushed 7 t = ((cfg0.win 7).blk t).view.read (Elt Ideal) (edgeRef m c) := by
  show (cfg0.win 7).cut (grid0.coords t) ((dat0 (V1 m ρ) c).after 7 t) = _
  rw [after0_7]
  unfold out0_7
  rw [View.canon_unit_zero hz2]
  simp only [View.ld_unit_zero (S := S4000x128) hz2, View.ld_unit_zero (S := S384x256) hz2,
    View.ld_unit_zero (S := S256) hz1, View.ld_unit_zero (S := S256x128) hz2, View.ld_unit_zero (S := S128) hz1]
  obtain ⟨-, -, -, -, -, -, -, -, -, -, -, -, e0, e1⟩ := idx_edge t
  funext y
  show k0_pay1 (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) y
    = edgeRef m c (((cfg0.win 7).blk t).view.emb y)
  refine Cert.Bridge.Edge.edge_point _ _ _ _ _ _ _ _ t.val _ _ _ _ _ _ _
    (blk_edge0 m ρ c t) (blk_edge1 m ρ c t) (blk_edge2 m ρ c t) (blk_edge3 m ρ c t) (blk_edge4 m ρ c t)
    (blk_edge5 m ρ c t) (blk_edge6 m ρ c t) y _ ?_ ?_
  · show win0_7.index t (0 : Fin 2) * 4000 + 1 * (y 0).val = t.val * 4000 + (y 0).val
    rw [e0]; omega
  · show win0_7.index t (1 : Fin 2) * 128 + 1 * (y 1).val = (y 1).val
    rw [e1]; omega

/-- An index of the result array is in point `t`'s block iff each coordinate is in the block's range. -/
theorem mem_blk_edge (t : Fin cfg0.N) (i : S600000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v19).slice (win0_7.rect t)).set ↔ _
  rw [View.set_slice_whole, Rect.mem_set_unit]
  exact Iff.rfl

/-- Row `r` of the result array is written by point `r / 4000`. -/
theorem cover_edge (i : S600000x128.Idx) :
    ∃ t : Fin cfg0.N, (cfg0.win 7).flush t = true ∧ i ∈ ((cfg0.win 7).blk t).view.set := by
  have hi0 : (i 0).val < 600000 := (i 0).isLt
  have hi1 : (i 1).val < 128 := (i 1).isLt
  have ht : (i 0).val / 4000 < cfg0.N := by rw [show cfg0.N = 150 from N_0]; omega
  obtain ⟨t, htv⟩ : ∃ t : Fin cfg0.N, t.val = (i 0).val / 4000 := ⟨⟨(i 0).val / 4000, ht⟩, rfl⟩
  refine ⟨t, flush0_7 t, ?_⟩
  rw [mem_blk_edge]
  obtain ⟨-, -, -, -, -, -, -, -, -, -, -, -, e0, e1⟩ := idx_edge t
  intro a
  match a with
  | ⟨0, _⟩ =>
    show win0_7.index t (0 : Fin 2) * 4000 ≤ (i 0).val ∧ (i 0).val < win0_7.index t (0 : Fin 2) * 4000 + 4000
    rw [e0, htv]; omega
  | ⟨1, _⟩ =>
    show win0_7.index t (1 : Fin 2) * 128 ≤ (i 1).val ∧ (i 1).val < win0_7.index t (1 : Fin 2) * 128 + 128
    rw [e1]; omega

/-- After the first grid the result array is the reference's edge table of the argument arrays. -/
theorem final_edge (c : Dev nD) : (dat0 (V1 m ρ) c).arrAt 7 cfg0.N = edgeRef m c :=
  (dat0 (V1 m ρ) c).arrAt_eq_of_cover 7 (edgeRef m c) (fun t _ => flushed_edge m ρ c t) cover_edge

end Cert.KernelIdeal.Out

end
-- ==== Proof.NodePoint.lean ====
import proofs.«158007_j50869592655555_2_alg».proof.Proof.Gen.KernelIdeal.Skeleton
import proofs.«158007_j50869592655555_2_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.Bridge.Node

open Cert.KernelIdeal (S4000x128 S4000x256 S256x256 S256 S256x128 S128 S1x256 S1x128)
open Idealize.ShloMosaic.ValueIdx (ix1 ix2 eq_ix2)

/-! ## Two blocks of 128 columns joined along the columns -/

/-- Column `k` of the row `p` of two `R × 128` tables set side by side: the left table's column `k` when `k < 128`,
    the right table's column `k - 128` otherwise. -/
def feat {R : ℕ} (a b : (⟨2, ![R, 128]⟩ : Shape).Idx → EReal) (p : Fin R) (k : Fin 256) : EReal :=
  if hk : k.val < 128 then a (ix2 p ⟨k.val, hk⟩) else b (ix2 p ⟨k.val - 128, by have := k.isLt; omega⟩)

/-- The join of two `R × 128` tables along the columns, read at `(p, k)`. -/
theorem concat_apply {R : ℕ} (a b : (⟨2, ![R, 128]⟩ : Shape).Idx → EReal)
    (h : Shape.Concatenates [(⟨2, ![R, 128]⟩ : Shape), (⟨2, ![R, 128]⟩ : Shape)] (⟨2, ![R, 256]⟩ : Shape) 1) (p : Fin R) (k : Fin 256) :
    concatenate (⟨2, ![R, 256]⟩ : Shape) 1 [⟨(⟨2, ![R, 128]⟩ : Shape), a⟩, ⟨(⟨2, ![R, 128]⟩ : Shape), b⟩] h (ix2 p k) = feat a b p k := by
  unfold feat
  split
  · rename_i hk
    refine concatenate_pair_apply_left 1 a b h (ix2 p k) rfl (ix2 p ⟨k.val, hk⟩) fun c => ?_
    match c with
    | ⟨0, _⟩ => rfl
    | ⟨1, _⟩ => rfl
  · rename_i hk
    refine concatenate_pair_apply_right 1 a b h (ix2 p k) rfl rfl (ix2 p ⟨k.val - 128, by have := k.isLt; omega⟩) (fun c hc => ?_) ?_
    · match c with
      | ⟨0, _⟩ => rfl
      | ⟨1, _⟩ => exact absurd rfl hc
    · show (k.val - 128) + 128 = k.val
      omega

/-- Two joined rows agree column by column when their left halves agree and their right halves agree. -/
theorem feat_congr {R R' : ℕ} (a b : (⟨2, ![R, 128]⟩ : Shape).Idx → EReal) (a' b' : (⟨2, ![R', 128]⟩ : Shape).Idx → EReal)
    (p : Fin R) (r : Fin R') (ha : ∀ q : Fin 128, a (ix2 p q) = a' (ix2 r q)) (hb : ∀ q : Fin 128, b (ix2 p q) = b' (ix2 r q))
    (k : Fin 256) : feat a b p k = feat a' b' r k := by
  unfold feat
  by_cases hk : k.val < 128
  · rw [dif_pos hk, dif_pos hk]
    exact ha _
  · rw [dif_neg hk, dif_neg hk]
    exact hb _

/-! ## The kernel's two products read at an index -/

theorem kdot1_lhs0 (i : S4000x256.Idx) (q : Cert.KernelIdeal.dot_S4000x256_S256x256_S4000x256_1_0_0_1_n_n.contr.Idx) :
    (Cert.KernelIdeal.dot_S4000x256_S256x256_S4000x256_1_0_0_1_n_n.lhsIdx i q 0).val = (i 0).val := by
  unfold DotDims.lhsIdx
  rw [dif_neg (show ¬(0 : Fin S4000x256.rank) ∈ Cert.KernelIdeal.dot_S4000x256_S256x256_S4000x256_1_0_0_1_n_n.lhsBatch by decide), dif_pos (show (0 : Fin S4000x256.rank) ∈ Cert.KernelIdeal.dot_S4000x256_S256x256_S4000x256_1_0_0_1_n_n.lhsNonContracting by decide)]
  rfl
theorem kdot1_lhs1 (i : S4000x256.Idx) (q : Cert.KernelIdeal.dot_S4000x256_S256x256_S4000x256_1_0_0_1_n_n.contr.Idx) :
    (Cert.KernelIdeal.dot_S4000x256_S256x256_S4000x256_1_0_0_1_n_n.lhsIdx i q 1).val = (q ⟨0, by decide⟩).val :=
  Cert.KernelIdeal.dot_S4000x256_S256x256_S4000x256_1_0_0_1_n_n.lhsIdx_val_of_single rfl i q
theorem kdot1_rhs0 (i : S4000x256.Idx) (q : Cert.KernelIdeal.dot_S4000x256_S256x256_S4000x256_1_0_0_1_n_n.contr.Idx) :
    (Cert.KernelIdeal.dot_S4000x256_S256x256_S4000x256_1_0_0_1_n_n.rhsIdx i q 0).val = (q ⟨0, by decide⟩).val :=
  Cert.KernelIdeal.dot_S4000x256_S256x256_S4000x256_1_0_0_1_n_n.rhsIdx_val_of_single rfl i q
theorem kdot1_rhs1 (i : S4000x256.Idx) (q : Cert.KernelIdeal.dot_S4000x256_S256x256_S4000x256_1_0_0_1_n_n.contr.Idx) :
    (Cert.KernelIdeal.dot_S4000x256_S256x256_S4000x256_1_0_0_1_n_n.rhsIdx i q 1).val = (i 1).val := by
  unfold DotDims.rhsIdx
  rw [dif_neg (show ¬(1 : Fin S256x256.rank) ∈ Cert.KernelIdeal.dot_S4000x256_S256x256_S4000x256_1_0_0_1_n_n.rhsBatch by decide), dif_pos (show (1 : Fin S256x256.rank) ∈ Cert.KernelIdeal.dot_S4000x256_S256x256_S4000x256_1_0_0_1_n_n.rhsNonContracting by decide)]
  rfl

/-- The product into the zero accumulator, read at `(p, h)`: the sum over the 256 contraction columns. -/
theorem kdot1_apply (A : FVec Ideal S4000x256 .bf16) (B : FVec Ideal S256x256 .bf16) (p : Fin 4000) (h : Fin 256) :
    matmul Cert.KernelIdeal.dot_S4000x256_S256x256_S4000x256_1_0_0_1_n_n none A B (constant (F := Ideal) S4000x256 .f32 0x00000000#32) (ix2 p h)
      = ∑ k : Fin 256, A (ix2 p k) * B (ix2 k h) := by
  show FloatOps.matmul Cert.KernelIdeal.dot_S4000x256_S256x256_S4000x256_1_0_0_1_n_n none A B (constant (F := Ideal) S4000x256 .f32 0x00000000#32) (ix2 p h) = _
  rw [Ideal.matmul_constant_zero_apply, ← Equiv.sum_comp (ValueIdx.contrEquiv1 Cert.KernelIdeal.dot_S4000x256_S256x256_S4000x256_1_0_0_1_n_n 256 rfl rfl).symm]
  refine Finset.sum_congr rfl fun k _ => ?_
  have hk := ValueIdx.contrEquiv1_symm_val Cert.KernelIdeal.dot_S4000x256_S256x256_S4000x256_1_0_0_1_n_n 256 rfl rfl k
  have el : Cert.KernelIdeal.dot_S4000x256_S256x256_S4000x256_1_0_0_1_n_n.lhsIdx (ix2 p h) ((ValueIdx.contrEquiv1 Cert.KernelIdeal.dot_S4000x256_S256x256_S4000x256_1_0_0_1_n_n 256 rfl rfl).symm k) = ix2 p k := funext fun a => Fin.ext (by
    match a with
    | ⟨0, _⟩ => exact kdot1_lhs0 _ _
    | ⟨1, _⟩ => exact (kdot1_lhs1 _ _).trans hk)
  have er : Cert.KernelIdeal.dot_S4000x256_S256x256_S4000x256_1_0_0_1_n_n.rhsIdx (ix2 p h) ((ValueIdx.contrEquiv1 Cert.KernelIdeal.dot_S4000x256_S256x256_S4000x256_1_0_0_1_n_n 256 rfl rfl).symm k) = ix2 k h := funext fun a => Fin.ext (by
    match a with
    | ⟨0, _⟩ => exact (kdot1_rhs0 _ _).trans hk
    | ⟨1, _⟩ => exact kdot1_rhs1 _ _)
  rw [el, er]

theorem kdot2_lhs0 (i : S4000x128.Idx) (q : Cert.KernelIdeal.dot_S4000x256_S256x128_S4000x128_1_0_0_1_n_n.contr.Idx) :
    (Cert.KernelIdeal.dot_S4000x256_S256x128_S4000x128_1_0_0_1_n_n.lhsIdx i q 0).val = (i 0).val := by
  unfold DotDims.lhsIdx
  rw [dif_neg (show ¬(0 : Fin S4000x256.rank) ∈ Cert.KernelIdeal.dot_S4000x256_S256x128_S4000x128_1_0_0_1_n_n.lhsBatch by decide), dif_pos (show (0 : Fin S4000x256.rank) ∈ Cert.KernelIdeal.dot_S4000x256_S256x128_S4000x128_1_0_0_1_n_n.lhsNonContracting by decide)]
  rfl
theorem kdot2_lhs1 (i : S4000x128.Idx) (q : Cert.KernelIdeal.dot_S4000x256_S256x128_S4000x128_1_0_0_1_n_n.contr.Idx) :
    (Cert.KernelIdeal.dot_S4000x256_S256x128_S4000x128_1_0_0_1_n_n.lhsIdx i q 1).val = (q ⟨0, by decide⟩).val :=
  Cert.KernelIdeal.dot_S4000x256_S256x128_S4000x128_1_0_0_1_n_n.lhsIdx_val_of_single rfl i q
theorem kdot2_rhs0 (i : S4000x128.Idx) (q : Cert.KernelIdeal.dot_S4000x256_S256x128_S4000x128_1_0_0_1_n_n.contr.Idx) :
    (Cert.KernelIdeal.dot_S4000x256_S256x128_S4000x128_1_0_0_1_n_n.rhsIdx i q 0).val = (q ⟨0, by decide⟩).val :=
  Cert.KernelIdeal.dot_S4000x256_S256x128_S4000x128_1_0_0_1_n_n.rhsIdx_val_of_single rfl i q
theorem kdot2_rhs1 (i : S4000x128.Idx) (q : Cert.KernelIdeal.dot_S4000x256_S256x128_S4000x128_1_0_0_1_n_n.contr.Idx) :
    (Cert.KernelIdeal.dot_S4000x256_S256x128_S4000x128_1_0_0_1_n_n.rhsIdx i q 1).val = (i 1).val := by
  unfold DotDims.rhsIdx
  rw [dif_neg (show ¬(1 : Fin S256x128.rank) ∈ Cert.KernelIdeal.dot_S4000x256_S256x128_S4000x128_1_0_0_1_n_n.rhsBatch by decide), dif_pos (show (1 : Fin S256x128.rank) ∈ Cert.KernelIdeal.dot_S4000x256_S256x128_S4000x128_1_0_0_1_n_n.rhsNonContracting by decide)]
  rfl

/-- The product into the zero accumulator, read at `(p, h)`: the sum over the 256 contraction columns. -/
theorem kdot2_apply (A : FVec Ideal S4000x256 .bf16) (B : FVec Ideal S256x128 .bf16) (p : Fin 4000) (h : Fin 128) :
    matmul Cert.KernelIdeal.dot_S4000x256_S256x128_S4000x128_1_0_0_1_n_n none A B (constant (F := Ideal) S4000x128 .f32 0x00000000#32) (ix2 p h)
      = ∑ k : Fin 256, A (ix2 p k) * B (ix2 k h) := by
  show FloatOps.matmul Cert.KernelIdeal.dot_S4000x256_S256x128_S4000x128_1_0_0_1_n_n none A B (constant (F := Ideal) S4000x128 .f32 0x00000000#32) (ix2 p h) = _
  rw [Ideal.matmul_constant_zero_apply, ← Equiv.sum_comp (ValueIdx.contrEquiv1 Cert.KernelIdeal.dot_S4000x256_S256x128_S4000x128_1_0_0_1_n_n 256 rfl rfl).symm]
  refine Finset.sum_congr rfl fun k _ => ?_
  have hk := ValueIdx.contrEquiv1_symm_val Cert.KernelIdeal.dot_S4000x256_S256x128_S4000x128_1_0_0_1_n_n 256 rfl rfl k
  have el : Cert.KernelIdeal.dot_S4000x256_S256x128_S4000x128_1_0_0_1_n_n.lhsIdx (ix2 p h) ((ValueIdx.contrEquiv1 Cert.KernelIdeal.dot_S4000x256_S256x128_S4000x128_1_0_0_1_n_n 256 rfl rfl).symm k) = ix2 p k := funext fun a => Fin.ext (by
    match a with
    | ⟨0, _⟩ => exact kdot2_lhs0 _ _
    | ⟨1, _⟩ => exact (kdot2_lhs1 _ _).trans hk)
  have er : Cert.KernelIdeal.dot_S4000x256_S256x128_S4000x128_1_0_0_1_n_n.rhsIdx (ix2 p h) ((ValueIdx.contrEquiv1 Cert.KernelIdeal.dot_S4000x256_S256x128_S4000x128_1_0_0_1_n_n 256 rfl rfl).symm k) = ix2 k h := funext fun a => Fin.ext (by
    match a with
    | ⟨0, _⟩ => exact (kdot2_rhs0 _ _).trans hk
    | ⟨1, _⟩ => exact kdot2_rhs1 _ _)
  rw [el, er]

/-! ## The bias row and the kernel's payload read at an index -/

/-- A length-`n` row cast to `1 × n` and repeated over 4000 rows reads, at `(p, h)`, the row's entry `h`. -/
theorem bias_apply {n : ℕ} (b : (⟨1, ![n]⟩ : Shape).Idx → EReal) (h1 : (⟨1, ![n]⟩ : Shape).ShapeCasts (⟨2, ![1, n]⟩ : Shape))
    (h2 : (⟨2, ![1, n]⟩ : Shape).Broadcasts (⟨2, ![4000, n]⟩ : Shape)) (p : Fin 4000) (h : Fin n) :
    broadcastTo (⟨2, ![4000, n]⟩ : Shape) (shapeCast (⟨2, ![1, n]⟩ : Shape) b h1) h2 (ix2 p h) = b (ix1 h) := by
  rw [ValueIdx.broadcastTo_1b_ab_apply, ValueIdx.shapeCast_a_1a_apply]

/-- The kernel's two dense layers at the entry `(p, c)` of its block: the hidden unit `h` is the row's 256 joined features
    against column `h` of the first weight plus the first bias, clipped below at zero; the output is the hidden row
    against column `c` of the second weight plus the second bias. -/
theorem pay_apply (n0 e2 : Vec Ideal S4000x128 .f32) (w1 : Vec Ideal S256x256 .bf16) (b1 : Vec Ideal S256 .f32)
    (w2 : Vec Ideal S256x128 .bf16) (b2 : Vec Ideal S128 .f32) (p : Fin 4000) (c : Fin 128) :
    Cert.KernelIdeal.Gen.k1_pay1 (F := Ideal) n0 e2 w1 b1 w2 b2 (ix2 p c)
      = (∑ h : Fin 256, max ((∑ k : Fin 256, feat n0 e2 p k * w1 (ix2 k h)) + b1 (ix1 h)) (Ideal.ofBits .f32 0x00000000#32)
          * w2 (ix2 h c)) + b2 (ix1 c) := by
  unfold Cert.KernelIdeal.Gen.k1_pay1
  simp only [shapeCast_self]
  rw [shapeCast_self e2]
  refine (ValueIdx.addf_apply _ _ _).trans ?_
  rw [kdot2_apply, bias_apply]
  refine congrArg (· + b2 (ix1 c)) (Finset.sum_congr rfl fun h _ => ?_)
  refine congrArg (· * w2 (ix2 h c)) ?_
  refine (ValueIdx.truncf_apply (φ := .f32) (ψ := .bf16) _ Cert.KernelIdeal.Gen.bitsLt_bf16_f32 _).trans ?_
  refine (ValueIdx.maximumf_apply _ _ _).trans ?_
  refine congrArg₂ max ?_ rfl
  refine (ValueIdx.addf_apply _ _ _).trans ?_
  rw [kdot1_apply, bias_apply]
  refine congrArg (· + b1 (ix1 h)) (Finset.sum_congr rfl fun k _ => ?_)
  refine congrArg (· * w1 (ix2 k h)) ?_
  exact (ValueIdx.truncf_apply (φ := .f32) (ψ := .bf16) _ Cert.KernelIdeal.Gen.bitsLt_bf16_f32 _).trans (concat_apply n0 e2 _ p k)

/-! ## The reference's two dense layers read at an index -/

open Cert.ReferenceIdeal.Stage in
/-- The reference's hidden unit `h` of the node row `r`: the row's 256 joined features (the node's own 128 and the 128
    aggregated ones) against column `h` of the first weight plus the first bias, clipped below at zero. -/
theorem host_hidden (x0 : (⟨Cert.ReferenceIdeal.S100000x128, .f32⟩ : BufTy).Contents (Elt Ideal))
    (x1 : (⟨Cert.ReferenceIdeal.S600000x128, .f32⟩ : BufTy).Contents (Elt Ideal))
    (x2 : (⟨Cert.ReferenceIdeal.S384x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S256x256, .f32⟩ : BufTy).Contents (Elt Ideal))
    (x7 : (⟨Cert.ReferenceIdeal.S256, .f32⟩ : BufTy).Contents (Elt Ideal))
    (x10 x11 : (⟨Cert.ReferenceIdeal.S600000, .i32⟩ : BufTy).Contents (Elt Ideal))
    (r : Fin 100000) (h : Fin 256) :
    val_main_v47 (F := Ideal) x0 x1 x2 x3 x4 x5 x6 x7 x10 x11 (ix2 r h)
      = max ((∑ k : Fin 256, feat x0 (val_main_v40 (F := Ideal) x0 x1 x2 x3 x4 x5 x10 x11) r k * x6 (ix2 k h)) + x7 (ix1 h))
          (Ideal.ofBits .f32 0x00000000#32) := by
  rw [val_main_v47_apply, val_main_v45_apply, val_main_v42_apply, val_main_v44_apply, val_main_v43_apply,
    val_main_v46_apply, val_main_cst_8_apply]
  show max (_ + _) _ = _
  refine congrArg₂ max (congrArg₂ (· + ·) (Finset.sum_congr rfl fun k _ => ?_) ?_) rfl
  · have el : lidx_main_v42 (ix2 r h) k = ix2 r k := funext fun a => by
      match a with
      | ⟨0, _⟩ => rfl
      | ⟨1, _⟩ => rfl
    have er : ridx_main_v42 (ix2 r h) k = ix2 k h := funext fun a => by
      match a with
      | ⟨0, _⟩ => rfl
      | ⟨1, _⟩ => rfl
    rw [el, er]
    refine congrArg (· * x6 (ix2 k h)) ?_
    unfold val_main_v41
    exact concat_apply x0 _ _ r k
  · exact congrArg x7 (funext fun a => by
      match a with
      | ⟨0, _⟩ => rfl)

open Cert.ReferenceIdeal.Stage in
/-- The reference's output `(r, c)`: the hidden row against column `c` of the second weight plus the second bias. -/
theorem host_out (x0 : (⟨Cert.ReferenceIdeal.S100000x128, .f32⟩ : BufTy).Contents (Elt Ideal))
    (x1 : (⟨Cert.ReferenceIdeal.S600000x128, .f32⟩ : BufTy).Contents (Elt Ideal))
    (x2 : (⟨Cert.ReferenceIdeal.S384x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S256x256, .f32⟩ : BufTy).Contents (Elt Ideal))
    (x7 : (⟨Cert.ReferenceIdeal.S256, .f32⟩ : BufTy).Contents (Elt Ideal))
    (x8 : (⟨Cert.ReferenceIdeal.S256x128, .f32⟩ : BufTy).Contents (Elt Ideal))
    (x9 : (⟨Cert.ReferenceIdeal.S128, .f32⟩ : BufTy).Contents (Elt Ideal))
    (x10 x11 : (⟨Cert.ReferenceIdeal.S600000, .i32⟩ : BufTy).Contents (Elt Ideal))
    (r : Fin 100000) (c : Fin 128) :
    val_main_v51 (F := Ideal) x0 x1 x2 x3 x4 x5 x6 x7 x8 x9 x10 x11 (ix2 r c)
      = (∑ h : Fin 256, val_main_v47 (F := Ideal) x0 x1 x2 x3 x4 x5 x6 x7 x10 x11 (ix2 r h) * x8 (ix2 h c)) + x9 (ix1 c) := by
  rw [val_main_v51_apply, val_main_v48_apply, val_main_v50_apply, val_main_v49_apply]
  show _ + _ = _
  refine congrArg₂ (· + ·) (Finset.sum_congr rfl fun h _ => ?_) ?_
  · have el : lidx_main_v48 (ix2 r c) h = ix2 r h := funext fun a => by
      match a with
      | ⟨0, _⟩ => rfl
      | ⟨1, _⟩ => rfl
    have er : ridx_main_v48 (ix2 r c) h = ix2 h c := funext fun a => by
      match a with
      | ⟨0, _⟩ => rfl
      | ⟨1, _⟩ => rfl
    rw [el, er]
  · exact congrArg x9 (funext fun a => by
      match a with
      | ⟨0, _⟩ => rfl)

/-- One entry of the node update. A block of 4000 node rows (block number `T`) goes through the two dense layers
    inside the kernel; the same row of the whole node table goes through them in the reference. When the kernel's
    loaded blocks are the corresponding rows of the reference's operands, the two entries agree. -/
theorem node_point
    (x0 : (⟨Cert.ReferenceIdeal.S100000x128, .f32⟩ : BufTy).Contents (Elt Ideal))
    (x1 : (⟨Cert.ReferenceIdeal.S600000x128, .f32⟩ : BufTy).Contents (Elt Ideal))
    (x2 : (⟨Cert.ReferenceIdeal.S384x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S256x256, .f32⟩ : BufTy).Contents (Elt Ideal))
    (x7 : (⟨Cert.ReferenceIdeal.S256, .f32⟩ : BufTy).Contents (Elt Ideal))
    (x8 : (⟨Cert.ReferenceIdeal.S256x128, .f32⟩ : BufTy).Contents (Elt Ideal))
    (x9 : (⟨Cert.ReferenceIdeal.S128, .f32⟩ : BufTy).Contents (Elt Ideal))
    (x10 x11 : (⟨Cert.ReferenceIdeal.S600000, .i32⟩ : BufTy).Contents (Elt Ideal))
    (T : ℕ)
    (n0 e2 : Vec Ideal S4000x128 .f32) (w1 : Vec Ideal S256x256 .bf16)
    (b1 : Vec Ideal S256 .f32) (w2 : Vec Ideal S256x128 .bf16) (b2 : Vec Ideal S128 .f32)
    (hn : ∀ (p : S4000x128.Idx) (q : Cert.ReferenceIdeal.S100000x128.Idx),
      (q 0).val = T * 4000 + (p 0).val → (q 1).val = (p 1).val → n0 p = x0 q)
    (he2 : ∀ (p : S4000x128.Idx) (q : Cert.ReferenceIdeal.S100000x128.Idx),
      (q 0).val = T * 4000 + (p 0).val → (q 1).val = (p 1).val →
      e2 p = Cert.ReferenceIdeal.Stage.val_main_v40 (F := Ideal) x0 x1 x2 x3 x4 x5 x10 x11 q)
    (hw1 : ∀ j, w1 j = x6 j) (hb1 : ∀ j, b1 j = x7 j) (hw2 : ∀ j, w2 j = x8 j) (hb2 : ∀ j, b2 j = x9 j)
    (y : S4000x128.Idx) (i : Cert.ReferenceIdeal.S100000x128.Idx)
    (hr : (i 0).val = T * 4000 + (y 0).val) (hc : (i 1).val = (y 1).val) :
    Cert.KernelIdeal.Gen.k1_pay1 (F := Ideal) n0 e2 w1 b1 w2 b2 y
      = Cert.ReferenceIdeal.Stage.val_main_v51 (F := Ideal) x0 x1 x2 x3 x4 x5 x6 x7 x8 x9 x10 x11 i := by
  obtain ⟨p, c, rfl⟩ : ∃ (p : Fin 4000) (c : Fin 128), y = ix2 p c := ⟨y 0, y 1, eq_ix2 y⟩
  obtain ⟨r, c', rfl⟩ : ∃ (r : Fin 100000) (c' : Fin 128), i = ix2 r c' := ⟨i 0, i 1, eq_ix2 i⟩
  have hcc : c' = c := Fin.ext hc
  subst hcc
  have hr' : r.val = T * 4000 + p.val := hr
  rw [pay_apply, host_out, hb2]
  refine congrArg (· + x9 (ix1 c')) (Finset.sum_congr rfl fun h _ => ?_)
  rw [host_hidden, hw2, hb1]
  refine congrArg (· * x8 (ix2 h c')) (congrArg₂ max (congrArg (· + x7 (ix1 h)) (Finset.sum_congr rfl fun k _ => ?_)) rfl)
  rw [hw1]
  exact congrArg (· * x6 (ix2 k h)) (feat_congr n0 e2 x0 _ p r (fun q => hn _ _ hr' rfl) (fun q => he2 _ _ hr' rfl) k)

end Cert.Bridge.Node

end
-- ==== Proof.NodeValue.lean ====
import proofs.«158007_j50869592655555_2_alg».proof.Proof.Gen.KernelIdeal.Frame
import proofs.«158007_j50869592655555_2_alg».proof.Proof.RefStages
import proofs.«158007_j50869592655555_2_alg».proof.Proof.EdgeValue
import proofs.«158007_j50869592655555_2_alg».proof.Proof.NodePoint
import Idealize.ShloMosaic.Lib.Pipeline.Value
import Idealize.ShloMosaic.Lib.StableHlo.Run

/-!
# Between the two grids, and the node update's result array

After the first grid the host scatter-adds the edge table's rows into a zero table, once at the normalised source
indices and once at the destination indices. The edge table it reads is the reference's (`final_edge`), the index
arithmetic is the reference's text, so the table the second grid finds is the reference's scattered table. The second
grid walks the 100000 node rows in 25 blocks of 4000; row by row it is the reference's node update (`NodePoint`), the
blocks tile the array, so after it the result array is the reference's node table.
-/

set_option maxRecDepth 16384

noncomputable section

namespace Cert.KernelIdeal.Out

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat Cfg Window)

variable (m : (ℓ : Loc nD τ sig) → Buf (Elt Ideal) ℓ) (ρ : Dev nD → PrngReg)

/-- The reference's scattered table (edge rows summed into both endpoints) of the launch memory's arguments. -/
abbrev scatRef (c : Dev nD) : (⟨Cert.ReferenceIdeal.S100000x128, .f32⟩ : BufTy).Contents (Elt Ideal) :=
  Cert.ReferenceIdeal.Stage.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg10)) (m ((c : Thread nD τ).loc main_arg11))

/-- The reference's node table of the launch memory's argument arrays. -/
abbrev nodeRef (c : Dev nD) : (⟨Cert.ReferenceIdeal.S100000x128, .f32⟩ : BufTy).Contents (Elt Ideal) :=
  Cert.ReferenceIdeal.Stage.val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-! ## The buffers at the first grid's exit -/

/-- The edge table after the first grid. -/
theorem W2_v19 (c : Dev nD) : W2 m ρ c (Proc.devRef .tc main_v19) = edgeRef m c :=
  (W2_arr m ρ c 7).trans (final_edge m ρ c)

theorem W2_arg0 (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

/-- The node update's first-layer weights: the argument, cast. -/
theorem W2_v3 (c : Dev nD) (q : S256x256.Idx) :
    W2 m ρ c (Proc.devRef .tc main_v3) q = m ((c : Thread nD τ).loc main_arg6) q := by
  rw [W2_of_ne m ρ c main_v3 (by decide)]
  show StableHlo.after hostOps0 (W0 m ρ c) (Proc.devRef .tc main_v3) q = _
  after_results
  rfl

/-- The node update's second-layer weights: the argument, cast. -/
theorem W2_v4 (c : Dev nD) (q : S256x128.Idx) :
    W2 m ρ c (Proc.devRef .tc main_v4) q = m ((c : Thread nD τ).loc main_arg8) q := by
  rw [W2_of_ne m ρ c main_v4 (by decide)]
  show StableHlo.after hostOps0 (W0 m ρ c) (Proc.devRef .tc main_v4) q = _
  after_results
  rfl

/-! ## The arrays the second grid finds -/

theorem V3_arg0 (c : Dev nD) (q : S100000x128.Idx) :
    V3 m ρ c main_arg0 q = m ((c : Thread nD τ).loc main_arg0) q := by
  show StableHlo.after hostOps1 (W2 m ρ c) (Proc.devRef .tc main_arg0) q = _
  after_results
  rw [W2_arg0]

theorem V3_arg7 (c : Dev nD) (q : S256.Idx) :
    V3 m ρ c main_arg7 q = m ((c : Thread nD τ).loc main_arg7) q := by
  show StableHlo.after hostOps1 (W2 m ρ c) (Proc.devRef .tc main_arg7) q = _
  after_results
  rw [W2_arg7]

theorem V3_arg9 (c : Dev nD) (q : S128.Idx) :
    V3 m ρ c main_arg9 q = m ((c : Thread nD τ).loc main_arg9) q := by
  show StableHlo.after hostOps1 (W2 m ρ c) (Proc.devRef .tc main_arg9) q = _
  after_results
  rw [W2_arg9]

theorem V3_v3 (c : Dev nD) (q : S256x256.Idx) :
    V3 m ρ c main_v3 q = m ((c : Thread nD τ).loc main_arg6) q := by
  show StableHlo.after hostOps1 (W2 m ρ c) (Proc.devRef .tc main_v3) q = _
  after_results
  exact W2_v3 m ρ c q

theorem V3_v4 (c : Dev nD) (q : S256x128.Idx) :
    V3 m ρ c main_v4 q = m ((c : Thread nD τ).loc main_arg8) q := by
  show StableHlo.after hostOps1 (W2 m ρ c) (Proc.devRef .tc main_v4) q = _
  after_results
  exact W2_v4 m ρ c q

/-- The scattered table as the second grid finds it: the host's two scatter-adds of the edge table the first grid
    left, at the normalised indices — the reference's scattered table of the same arguments. -/
theorem V3_v34 (c : Dev nD) (q : S100000x128.Idx) :
    V3 m ρ c main_v34 q = scatRef m c q := by
  show StableHlo.after hostOps1 (W2 m ρ c) (Proc.devRef .tc main_v34) q = _
  after_results_simp
  rw [W2_v19, W2_arg10, W2_arg11]
  rfl

/-- Where the second grid's windows sit at point `t`. -/
theorem idx_node : ∀ t : Fin cfg1.N,
    win1_0.index t (0 : Fin 2) = t.val ∧ win1_0.index t (1 : Fin 2) = 0 ∧
    win1_1.index t (0 : Fin 2) = t.val ∧ win1_1.index t (1 : Fin 2) = 0 ∧
    win1_2.index t (0 : Fin 2) = 0 ∧ win1_2.index t (1 : Fin 2) = 0 ∧
    win1_3.index t (0 : Fin 1) = 0 ∧
    win1_4.index t (0 : Fin 2) = 0 ∧ win1_4.index t (1 : Fin 2) = 0 ∧
    win1_5.index t (0 : Fin 1) = 0 ∧
    win1_6.index t (0 : Fin 2) = t.val ∧ win1_6.index t (1 : Fin 2) = 0 :=
  (by decide +kernel : ∀ t : Fin grid1.N, _)

/-! ## The blocks the body loads at point `t` -/

theorem blk_node0 (c : Dev nD) (t : Fin cfg1.N) (p : S4000x128.Idx) (q : S100000x128.Idx)
    (h0 : (q 0).val = t.val * 4000 + (p 0).val) (h1 : (q 1).val = (p 1).val) :
    iblk1 (V3 m ρ) c 0 t p = m ((c : Thread nD τ).loc main_arg0) q := by
  obtain ⟨e0, e1, -⟩ := idx_node t
  have e : ((cfg1.win 0).blk t).view.emb p = q := by
    funext a; apply Fin.ext
    match a with
    | ⟨0, _⟩ => show win1_0.index t (0 : Fin 2) * 4000 + 1 * (p 0).val = (q 0).val; rw [e0]; omega
    | ⟨1, _⟩ => show win1_0.index t (1 : Fin 2) * 128 + 1 * (p 1).val = (q 1).val; rw [e1]; omega
  show V3 m ρ c main_arg0 (((cfg1.win 0).blk t).view.emb p) = _
  rw [e]
  exact V3_arg0 m ρ c q

theorem blk_node1 (c : Dev nD) (t : Fin cfg1.N) (p : S4000x128.Idx) (q : S100000x128.Idx)
    (h0 : (q 0).val = t.val * 4000 + (p 0).val) (h1 : (q 1).val = (p 1).val) :
    iblk1 (V3 m ρ) c 1 t p = scatRef m c q := by
  obtain ⟨-, -, e0, e1, -⟩ := idx_node t
  have e : ((cfg1.win 1).blk t).view.emb p = q := by
    funext a; apply Fin.ext
    match a with
    | ⟨0, _⟩ => show win1_1.index t (0 : Fin 2) * 4000 + 1 * (p 0).val = (q 0).val; rw [e0]; omega
    | ⟨1, _⟩ => show win1_1.index t (1 : Fin 2) * 128 + 1 * (p 1).val = (q 1).val; rw [e1]; omega
  show V3 m ρ c main_v34 (((cfg1.win 1).blk t).view.emb p) = _
  rw [e]
  exact V3_v34 m ρ c q

theorem blk_node2 (c : Dev nD) (t : Fin cfg1.N) (j : S256x256.Idx) :
    iblk1 (V3 m ρ) c 2 t j = m ((c : Thread nD τ).loc main_arg6) j := by
  obtain ⟨-, -, -, -, e0, e1, -⟩ := idx_node t
  have e : ((cfg1.win 2).blk t).view.emb j = j := by
    funext a; apply Fin.ext
    match a with
    | ⟨0, _⟩ => show win1_2.index t (0 : Fin 2) * 256 + 1 * (j 0).val = (j 0).val; rw [e0]; omega
    | ⟨1, _⟩ => show win1_2.index t (1 : Fin 2) * 256 + 1 * (j 1).val = (j 1).val; rw [e1]; omega
  show V3 m ρ c main_v3 (((cfg1.win 2).blk t).view.emb j) = _
  rw [e]
  exact V3_v3 m ρ c j

theorem blk_node3 (c : Dev nD) (t : Fin cfg1.N) (j : S256.Idx) :
    iblk1 (V3 m ρ) c 3 t j = m ((c : Thread nD τ).loc main_arg7) j := by
  obtain ⟨-, -, -, -, -, -, e0, -⟩ := idx_node t
  have e : ((cfg1.win 3).blk t).view.emb j = j := by
    funext a; apply Fin.ext
    match a with
    | ⟨0, _⟩ => show win1_3.index t (0 : Fin 1) * 256 + 1 * (j 0).val = (j 0).val; rw [e0]; omega
  show V3 m ρ c main_arg7 (((cfg1.win 3).blk t).view.emb j) = _
  rw [e]
  exact V3_arg7 m ρ c j

theorem blk_node4 (c : Dev nD) (t : Fin cfg1.N) (j : S256x128.Idx) :
    iblk1 (V3 m ρ) c 4 t j = m ((c : Thread nD τ).loc main_arg8) j := by
  obtain ⟨-, -, -, -, -, -, -, e0, e1, -⟩ := idx_node t
  have e : ((cfg1.win 4).blk t).view.emb j = j := by
    funext a; apply Fin.ext
    match a with
    | ⟨0, _⟩ => show win1_4.index t (0 : Fin 2) * 256 + 1 * (j 0).val = (j 0).val; rw [e0]; omega
    | ⟨1, _⟩ => show win1_4.index t (1 : Fin 2) * 128 + 1 * (j 1).val = (j 1).val; rw [e1]; omega
  show V3 m ρ c main_v4 (((cfg1.win 4).blk t).view.emb j) = _
  rw [e]
  exact V3_v4 m ρ c j

theorem blk_node5 (c : Dev nD) (t : Fin cfg1.N) (j : S128.Idx) :
    iblk1 (V3 m ρ) c 5 t j = m ((c : Thread nD τ).loc main_arg9) j := by
  obtain ⟨-, -, -, -, -, -, -, -, -, e0, -⟩ := idx_node t
  have e : ((cfg1.win 5).blk t).view.emb j = j := by
    funext a; apply Fin.ext
    match a with
    | ⟨0, _⟩ => show win1_5.index t (0 : Fin 1) * 128 + 1 * (j 0).val = (j 0).val; rw [e0]; omega
  show V3 m ρ c main_arg9 (((cfg1.win 5).blk t).view.emb j) = _
  rw [e]
  exact V3_arg9 m ρ c j

/-! ## What point `t` writes back, the cover, the array -/

/-- Point `t` writes back rows `4000 t … 4000 t + 3999` of the reference's node table. -/
theorem flushed_node (c : Dev nD) (t : Fin cfg1.N) :
    (dat1 (V3 m ρ) c).flushed 6 t = ((cfg1.win 6).blk t).view.read (Elt Ideal) (nodeRef m c) := by
  show (cfg1.win 6).cut (grid1.coords t) ((dat1 (V3 m ρ) c).after 6 t) = _
  rw [after1_6]
  unfold out1_6
  rw [View.canon_unit_zero hz2]
  simp only [View.ld_unit_zero (S := S4000x128) hz2, View.ld_unit_zero (S := S256x256) hz2,
    View.ld_unit_zero (S := S256) hz1, View.ld_unit_zero (S := S256x128) hz2, View.ld_unit_zero (S := S128) hz1]
  obtain ⟨-, -, -, -, -, -, -, -, -, -, e0, e1⟩ := idx_node t
  funext y
  show k1_pay1 (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) y
    = nodeRef m c (((cfg1.win 6).blk t).view.emb y)
  refine Cert.Bridge.Node.node_point _ _ _ _ _ _ _ _ _ _ _ _ t.val _ _ _ _ _ _
    (blk_node0 m ρ c t) (blk_node1 m ρ c t) (blk_node2 m ρ c t) (blk_node3 m ρ c t) (blk_node4 m ρ c t)
    (blk_node5 m ρ c t) y _ ?_ ?_
  · show win1_6.index t (0 : Fin 2) * 4000 + 1 * (y 0).val = t.val * 4000 + (y 0).val
    rw [e0]; omega
  · show win1_6.index t (1 : Fin 2) * 128 + 1 * (y 1).val = (y 1).val
    rw [e1]; omega

/-- An index of the result array is in point `t`'s block iff each coordinate is in the block's range. -/
theorem mem_blk_node (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v35).slice (win1_6.rect t)).set ↔ _
  rw [View.set_slice_whole, Rect.mem_set_unit]
  exact Iff.rfl

/-- Row `r` of the result array is written by point `r / 4000`. -/
theorem cover_node (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < cfg1.N := by rw [show cfg1.N = 25 from N_1]; omega
  obtain ⟨t, htv⟩ : ∃ t : Fin cfg1.N, t.val = (i 0).val / 4000 := ⟨⟨(i 0).val / 4000, ht⟩, rfl⟩
  refine ⟨t, flush1_6 t, ?_⟩
  rw [mem_blk_node]
  obtain ⟨-, -, -, -, -, -, -, -, -, -, e0, e1⟩ := idx_node t
  intro a
  match a with
  | ⟨0, _⟩ =>
    show win1_6.index t (0 : Fin 2) * 4000 ≤ (i 0).val ∧ (i 0).val < win1_6.index t (0 : Fin 2) * 4000 + 4000
    rw [e0, htv]; omega
  | ⟨1, _⟩ =>
    show win1_6.index t (1 : Fin 2) * 128 ≤ (i 1).val ∧ (i 1).val < win1_6.index t (1 : Fin 2) * 128 + 128
    rw [e1]; omega

/-- After the second grid the result array is the reference's node table of the argument arrays. -/
theorem final_node (c : Dev nD) : (dat1 (V3 m ρ) c).arrAt 6 cfg1.N = nodeRef m c :=
  (dat1 (V3 m ρ) c).arrAt_eq_of_cover 6 (nodeRef m c) (fun t _ => flushed_node m ρ c t) cover_node

/-! ## The two result buffers at the return -/

/-- The node table at the return. -/
theorem W4_v35 (c : Dev nD) : W4 m ρ c (Proc.devRef .tc main_v35) = nodeRef m c :=
  (W4_arr m ρ c 6).trans (final_node m ρ c)

/-- The edge table at the return: neither the second host stretch nor the second grid writes it. -/
theorem W4_v19 (c : Dev nD) : W4 m ρ c (Proc.devRef .tc main_v19) = edgeRef m c := by
  refine (W4_of_ne m ρ c main_v19 (by decide)).trans ?_
  show StableHlo.after hostOps1 (W2 m ρ c) (Proc.devRef .tc main_v19) = _
  after_results_simp
  exact W2_v19 m ρ c

end Cert.KernelIdeal.Out

end
-- ==== Proof.KernelRun.lean ====
import proofs.«158007_j50869592655555_2_alg».proof.Proof.Run
import proofs.«158007_j50869592655555_2_alg».proof.Proof.NodeValue

/-!
# The idealized kernel's run, with its results named

Every weakly fair execution of the idealized kernel terminates without a fault; afterwards the node result holds the
reference's node table of the argument arrays, the edge result the reference's edge table, and the argument arrays are
as launched.
-/

set_option maxRecDepth 16384

noncomputable section

namespace Cert.KernelIdeal.Out

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_kernel : θ_run defs (onTc (τ := τ) (main (F := Ideal))) ⟨m, fun _ => 0, ρ⟩ (fun r => ∀ c : Dev nD,
      r.2.mem ((c.tc : Thread nD τ).loc main_v35) = nodeRef m c
      ∧ r.2.mem ((c.tc : Thread nD τ).loc main_v19) = edgeRef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v35 (by decide))).trans (W4_v35 m ρ c),
     (h c _ (mem_uc main_v19 (by decide))).trans (W4_v19 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)
    (run_all m ρ)

end Cert.KernelIdeal.Out

end
-- ==== Proof.lean ====
/-
  The kernel is a two-stage message-passing update on a graph with 100000 nodes and 600000 edges: every edge's new
  feature row is a two-layer perceptron (dense layer, clamp below at zero, dense layer) of its own row joined with the
  rows of its two endpoint nodes; the edge rows are then summed into both endpoints; every node's new row is a second
  two-layer perceptron of its own row joined with that sum. The kernel computes the two perceptrons block by block —
  4000 rows at a time, in a narrow float format for the matrix products — around the host's gathers and
  scatter-adds; the reference computes everything on whole arrays. Over the extended reals a change of float format
  is the identity and a matrix product is a plain sum, so row by row both programs evaluate the same expression
  `(∑ h, max ((∑ k, X k · W₁ k h) + b₁ h) 0 · W₂ h j) + b₂ j` on the same joined row `X`; no law of arithmetic beyond
  that reading is used, and the inputs' finiteness is never opened.

  `Proof/EdgePoint`, `Proof/NodePoint`: one entry of a block's perceptron is the reference's entry of that row.
  `Proof/EdgeValue`, `Proof/NodeValue`: the blocks tile the arrays, so each result array is the reference's table.
  `Proof/Run`, `Proof/KernelRun`: the kernel's run with both result arrays named. `Proof/RefRunP`, `Proof/RefRunQ`,
  `Proof/RefRun`: the reference's run, read in pieces. Here: the five claims.
-/
import proofs.«158007_j50869592655555_2_alg».proof.Defs
import proofs.«158007_j50869592655555_2_alg».proof.Proof.Gen.Kernel
import proofs.«158007_j50869592655555_2_alg».proof.Proof.Gen.Kernel.Skeleton
import proofs.«158007_j50869592655555_2_alg».proof.Proof.Gen.Kernel.Launch
import proofs.«158007_j50869592655555_2_alg».proof.Proof.Gen.Kernel.Points
import proofs.«158007_j50869592655555_2_alg».proof.Proof.Gen.Kernel.Frame
import proofs.«158007_j50869592655555_2_alg».proof.Proof.Gen.KernelIdeal
import proofs.«158007_j50869592655555_2_alg».proof.Proof.Gen.KernelIdeal.Skeleton
import proofs.«158007_j50869592655555_2_alg».proof.Proof.Gen.KernelIdeal.Launch
import proofs.«158007_j50869592655555_2_alg».proof.Proof.Gen.KernelIdeal.Points
import proofs.«158007_j50869592655555_2_alg».proof.Proof.Gen.KernelIdeal.Frame
import proofs.«158007_j50869592655555_2_alg».proof.Proof.Gen.ReferenceIdeal
import proofs.«158007_j50869592655555_2_alg».proof.Proof.Gen.Pre_finite_inputs
import proofs.«158007_j50869592655555_2_alg».proof.Proof.RefRun
import proofs.«158007_j50869592655555_2_alg».proof.Proof.KernelRun
import Idealize.ShloMosaic.Adequacy
import Idealize.ShloMosaic.Init

noncomputable section

namespace Cert.Proof

open Idealize.ShloMosaic Idealize.SL.Sem

/-- The word-level kernel runs, and leaves its arguments as launched. -/
theorem frame_k : Cert.frame_Kernel :=
  fun m ρ _ => Cert.Kernel.Gen.frame m ρ

/-- So does the idealized kernel. -/
theorem frame_ki : Cert.frame_KernelIdeal :=
  fun m ρ _ => Cert.KernelIdeal.Gen.frame m ρ

/-- The reference is a straight line of host operations: its run, with the results forgotten. -/
theorem frame_ri : Cert.frame_ReferenceIdeal :=
  fun m ρ _ => (θ_run Cert.ReferenceIdeal.defs _ _).mono (fun _ h c => (h c).2.2)
    (Cert.ReferenceIdeal.Staged.run (F := Ideal) m ρ)

/-- Both programs, from memories that agree on the arguments, end with the reference's node table and edge table of
    those arguments in their two results. -/
theorem algebraic :
    Cert.algebraic_KernelIdeal_ReferenceIdeal := by
  intro m ρ m' ρ' _ hagree
  refine ⟨fun c => Cert.KernelIdeal.Out.nodeRef m c, fun c => Cert.KernelIdeal.Out.edgeRef m c,
    Cert.KernelIdeal.Out.run_kernel m ρ, ?_⟩
  refine (θ_run Cert.ReferenceIdeal.defs _ _).mono (fun r h c => ⟨(h c).1.trans ?_, (h c).2.1.trans ?_, (h c).2.2⟩)
    (Cert.ReferenceIdeal.Staged.run (F := Ideal) m' ρ')
  · obtain ⟨a0, a1, a2, a3, a4, a5, a6, a7, a8, a9, a10, a11⟩ := hagree c
    rw [a0, a1, a2, a3, a4, a5, a6, a7, a8, a9, a10, a11]
  · obtain ⟨a0, a1, a2, a3, a4, a5, a6, a7, a8, a9, a10, a11⟩ := hagree c
    rw [a0, a1, a2, a3, a4, a5, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
